-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1001 : Shape := ⟨1, ![1001]⟩
abbrev S1000 : Shape := ⟨1, ![1000]⟩
abbrev S_ : Shape := ⟨0, ![]⟩

class Facts : Prop where
  bcast_S_S1001 : S_.BroadcastsInDim S1001 (![] : Fin 0 → Fin S1001.rank)
  reducesTo_S1001_S_d0 : S1001.ReducesTo [0] S_
  h_S_ : 0 < S_.numel
  bcast_S_S1000 : S_.BroadcastsInDim S1000 (![] : Fin 0 → Fin S1000.rank)
  reducesTo_S1000_S_d0 : S1000.ReducesTo [0] S_
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S1001 .f32) (main_arg2 : FVec F S1000 .f32) : IVec S_ 1 :=
  let main_v0 : FVec F S1001 .f32 := Host.absf main_arg1
  let main_cst : FVec F S_ .f32 := constant S_ .f32 0x7F800000#32
  let main_v1 : FVec F S1001 .f32 := broadcastInDim S1001 ![] bcast_S_S1001 main_cst
  let main_v2 : IVec S1001 1 := cmpf .olt main_v0 main_v1
  let main_c : IVec S_ 1 := constantI S_ 1 1#1
  let main_v3 : IVec S_ 1 := (fun x v => Host.reduce IntOp.andi x v reducesTo_S1001_S_d0 h_S_) main_v2 main_c
  let main_v4 : FVec F S1000 .f32 := Host.absf main_arg2
  let main_cst_0 : FVec F S_ .f32 := constant S_ .f32 0x7F800000#32
  let main_v5 : FVec F S1000 .f32 := broadcastInDim S1000 ![] bcast_S_S1000 main_cst_0
  let main_v6 : IVec S1000 1 := cmpf .olt main_v4 main_v5
  let main_c_1 : IVec S_ 1 := constantI S_ 1 1#1
  let main_v7 : IVec S_ 1 := (fun x v => Host.reduce IntOp.andi x v reducesTo_S1000_S_d0 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg0 main_v9
  let main_c_3 : IVec S_ 32 := constantI S_ 32 999#32
  let main_v11 : IVec S16384 32 := broadcastInDim S16384 ![] bcast_S_S16384 main_c_3
  let main_v12 : IVec S16384 1 := cmpi .sle main_arg0 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S16384 : Shape := ⟨1, ![16384]⟩
abbrev S1001 : Shape := ⟨1, ![1001]⟩
abbrev S1000 : Shape := ⟨1, ![1000]⟩
abbrev S1024 : Shape := ⟨1, ![1024]⟩
abbrev S_ : Shape := ⟨0, ![]⟩
abbrev S16 : Shape := ⟨1, ![16]⟩

abbrev nBuf : Table → Nat
  | .hbm => 4
  | .local .scVector .vmem => 3
  | _ => 0

abbrev bufTy : (tb : Table) → Fin (nBuf tb) → BufTy
  | .hbm, ⟨0, _⟩ => ⟨S16384, .i32⟩
  | .hbm, ⟨1, _⟩ => ⟨S1001, .f32⟩
  | .hbm, ⟨2, _⟩ => ⟨S1000, .f32⟩
  | .hbm, ⟨3, _⟩ => ⟨S16384, .f32⟩
  | .local .scVector .vmem, ⟨0, _⟩ => ⟨S1001, .f32⟩
  | .local .scVector .vmem, ⟨1, _⟩ => ⟨S1024, .i32⟩
  | .local .scVector .vmem, ⟨2, _⟩ => ⟨S1024, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg0_scv : Ref sig .scVector := ⟨.hbm, 0, rfl⟩
abbrev main_arg1_scv : Ref sig .scVector := ⟨.hbm, 1, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let arg0 : BitVec 32 := BitVec.ofNat 32 (i 0).val
  let c16_i32 : BitVec 32 := 16#32
  let v0 : BitVec 32 := Scalar.muli arg0 c16_i32
  let v1 : BitVec 32 := Scalar.addi arg1 v0
  let c1024_i32 : BitVec 32 := 1024#32
  let v2 : BitVec 32 := Scalar.muli v1 c1024_i32
  ![v2.toNat]
@[reducible] def k0_t1_loop : Scf.Loop 32 :=
  let c0_i32 : BitVec 32 := 0#32
  let c64_i32 : BitVec 32 := 64#32
  let v7 : BitVec 32 := Scalar.addi c0_i32 c64_i32
  let c1_i32 : BitVec 32 := 1#32
  ⟨c0_i32, v7, c1_i32⟩
def k0_off2 (k0_t1 : Fin k0_t1_loop.trips) : Fin 1 → Nat :=
  let c0_i32_2 : BitVec 32 := 0#32
  let c0_i32 : BitVec 32 := 0#32
  let c1_i32 : BitVec 32 := 1#32
  let arg10 : BitVec 32 := Scf.iv c0_i32 c1_i32 k0_t1
  let c16_i32_1 : BitVec 32 := 16#32
  let v8 : BitVec 32 := Scalar.muli arg10 c16_i32_1
  let v9 : BitVec 32 := Scalar.addi c0_i32_2 v8
  let v10 : Index := Scalar.indexCast v9
  ![v10.toNat]

def k0_chk1 (v11 : IVec S16 32) : Prop :=
  (∀ a x, ((![v11] : Fin 1 → IVec S16 32) a x).toNat < S1001.size a)
instance k0_chk1.dec : ∀ (v11 : IVec S16 32), Decidable (k0_chk1 v11) := fun v11 => decidable_of_iff' _ (Iff.of_eq (k0_chk1.eq_1 v11))
theorem k0_idx1_inb : ∀ (v11 : IVec S16 32) (k0_hw1 : k0_chk1 v11), ∀ a x, ((![v11] : Fin 1 → IVec S16 32) a x).toNat < S1001.size a := fun v11 k0_hw1 => k0_hw1
def k0_off3 (k0_t1 : Fin k0_t1_loop.trips) : Fin 1 → Nat :=
  let c0_i32_2 : BitVec 32 := 0#32
  let c0_i32 : BitVec 32 := 0#32
  let c1_i32 : BitVec 32 := 1#32
  let arg10 : BitVec 32 := Scf.iv c0_i32 c1_i32 k0_t1
  let c16_i32_1 : BitVec 32 := 16#32
  let v8 : BitVec 32 := Scalar.muli arg10 c16_i32_1
  let v9 : BitVec 32 := Scalar.addi c0_i32_2 v8
  let v13 : Index := Scalar.indexCast v9
  ![v13.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  h_S16 : 0 < S16.numel
  h_S1001 : 0 < S1001.numel
  hcc0_scratch3 : 0 + S_.numel ≤ 3
  hcc0_scratch4 : 1 + S_.numel ≤ 3
  hcc0_scoped0 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1024.size a ≤ S16384.size a
  k0_t1_ok : k0_t1_loop.OK
  k0_off2_inb : ∀ k0_t1 : Fin k0_t1_loop.trips, ∀ a, (k0_off2 k0_t1) a + S16.size a ≤ S1024.size a
  k0_off3_inb : ∀ k0_t1 : Fin k0_t1_loop.trips, ∀ a, (k0_off3 k0_t1) a + S16.size a ≤ S1024.size a

variable [Facts₀]

abbrev cc0_scratch3 : DmaSems sig S_ := SemArray.consecutive 0 S_ hcc0_scratch3
abbrev cc0_scratch4 : DmaSems sig S_ := SemArray.consecutive 1 S_ hcc0_scratch4
abbrev cc0_scoped0 : DmaSems sig S_ := SemArray.consecutive 2 S_ hcc0_scoped0

class Facts : Prop extends Facts₀ where

variable [Facts]
-- ==== ReferenceIdeal.lean ====
abbrev S16384 : Shape := ⟨1, ![16384]⟩
abbrev S1001 : Shape := ⟨1, ![1001]⟩
abbrev S1000 : Shape := ⟨1, ![1000]⟩
abbrev S_ : Shape := ⟨0, ![]⟩
abbrev S16384x1 : Shape := ⟨2, ![16384, 1]⟩
abbrev S1 : Shape := ⟨1, ![1]⟩
abbrev S1x1 : Shape := ⟨2, ![1, 1]⟩

abbrev nBuf : Space → Nat
  | .hbm => 33
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1001, .f32⟩
  | .hbm, ⟨2, _⟩ => ⟨S1000, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S16384, .i32⟩
  | .hbm, ⟨18, _⟩ => ⟨S16384x1, .i32⟩
  | .hbm, ⟨19, _⟩ => ⟨S1, .i32⟩
  | .hbm, ⟨20, _⟩ => ⟨S_, .i32⟩
  | .hbm, ⟨21, _⟩ => ⟨S16384x1, .i32⟩
  | .hbm, ⟨22, _⟩ => ⟨S16384x1, .i1⟩
  | .hbm, ⟨23, _⟩ => ⟨S1x1, .i32⟩
  | .hbm, ⟨24, _⟩ => ⟨S16384x1, .i32⟩
  | .hbm, ⟨25, _⟩ => ⟨S16384x1, .i1⟩
  | .hbm, ⟨26, _⟩ => ⟨S16384x1, .i1⟩
  | .hbm, ⟨27, _⟩ => ⟨S_, .i1⟩
  | .hbm, ⟨28, _⟩ => ⟨S16384, .i1⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_call1_c : Ref sig .tc := ⟨.hbm, 11, rfl⟩
abbrev main_call1_v0 : Ref sig .tc := ⟨.hbm, 12, rfl⟩
abbrev main_call1_v1 : Ref sig .tc := ⟨.hbm, 13, rfl⟩
abbrev main_call1_c_0 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_call1_v5 : Ref sig .tc := ⟨.hbm, 18, rfl⟩
abbrev main_call1_c_1 : Ref sig .tc := ⟨.hbm, 19, rfl⟩
abbrev main_call1_c_2 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_call1_c_3 : Ref sig .tc := ⟨.hbm, 27, rfl⟩
abbrev main_call1_v12 : Ref sig .tc := ⟨.hbm, 28, rfl⟩
abbrev main_call1_v13 : Ref sig .tc := ⟨.hbm, 29, rfl⟩
abbrev main_call1_cst : Ref sig .tc := ⟨.hbm, 30, rfl⟩
abbrev main_call1_v14 : Ref sig .tc := ⟨.hbm, 31, rfl⟩
abbrev main_v1 : Ref sig .tc := ⟨.hbm, 32, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  gather_S1001_S16384x1_S16384_n_0_n_n_0_1_1_wf : GatherDims.WF S1001 S16384x1 S16384 [] [0] [] [0] [] 1 ![1]

variable [Facts₀]

def gather_S1001_S16384x1_S16384_n_0_n_n_0_1_1 : GatherDims S1001 S16384x1 S16384 where
  offsetDims := []
  collapsedSliceDims := [0]
  operandBatchingDims := []
  startIndicesBatchingDims := []
  startIndexMap := [0]
  indexVectorDim := 1
  sliceSizes := ![1]
  wf := gather_S1001_S16384x1_S16384_n_0_n_n_0_1_1_wf

class Facts : Prop extends Facts₀ where

variable [Facts]
-- ==== Proof.Spec.lean ====
/-
  The function both programs compute, stated once.

  The result has one entry per timestep word: entry `j` is the table's entry at the position the word `t j` names.
  A word names a position through its value as a natural number; the position is taken modulo the table's length so
  that the function is total, and on words in the certificate's range (`InRange`: below 1000, so below the table's
  1001 entries) the reduction changes nothing.
-/
import Idealize.ShloMosaic.PureOps
import Idealize.ShloMosaic.Lib.ValueIdx

namespace Cert.Proof.Spec

open Idealize.ShloMosaic Idealize.ShloMosaic.ValueIdx

abbrev S16384 : Shape := ⟨1, ![16384]⟩
abbrev S1001 : Shape := ⟨1, ![1001]⟩

/-- Every timestep word is below 1000 (as a natural number; so it is non-negative as a signed one, and at most 999). -/
def InRange (t : IVec S16384 32) : Prop := ∀ j, (t j).toNat < 1000

/-- The table position a word names. -/
def pos (w : BitVec 32) : S1001.Idx := ix1 ⟨w.toNat % 1001, Nat.mod_lt _ (by decide)⟩

/-- The gathered array: entry `j` is the table at the position `t j` names. -/
def G {α : Type} (t : IVec S16384 32) (a : S1001.Idx → α) : S16384.Idx → α := fun j => a (pos (t j))

theorem G_apply {α : Type} (t : IVec S16384 32) (a : S1001.Idx → α) (j : S16384.Idx) : G t a j = a (pos (t j)) := rfl

/-- On a word below the table's length the position is the word's value. -/
theorem pos_val (w : BitVec 32) (h : w.toNat < 1001) : (pos w 0).val = w.toNat := Nat.mod_eq_of_lt h

end Cert.Proof.Spec
-- ==== Proof.KIDefs.lean ====
/-
  The gather kernel as the launch theorem sees it, and what the launch's handshakes carry.

  Sixteen vector subcores of one SparseCore each take one chunk of 1024 timestep words. A task copies the whole
  table and its chunk of words into its own memory, looks each word up in the table sixteen lanes at a time, and
  copies the 1024 looked-up entries to its chunk of the result. The call hands the SparseCore the three arrays whole;
  the sequencer hands task `i` chunk `i` of the words and of the result outright and a READ SHARE of the table
  (every task reads all of it); a task hands back its chunk of the result holding the gathered entries
  (`Spec.G` of the launch contents), and the sixteen chunks are the whole result.
  The tasks only make local copies and wait for them: their semaphores need no schedule, only counters.
-/
import proofs.«200234_g71571335020938_cont_9to1c4b_332_23_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«200234_g71571335020938_cont_9to1c4b_332_23_alg».proof.Proof.Gen.KernelIdeal
import proofs.«200234_g71571335020938_cont_9to1c4b_332_23_alg».proof.Proof.Gen.KernelIdeal.Skeleton
import proofs.«200234_g71571335020938_cont_9to1c4b_332_23_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays and the chunks -/

variable (m : (ℓ : Loc nD τ sig) → Buf (Elt F) ℓ) (ρ : Dev nD → PrngReg)

/-- The timestep words, the table, the unused third argument, and the result, as locations of device `d`. -/
abbrev wLoc (d : Dev nD) : Loc nD τ sig := (SparseCore.T d).loc main_arg0
abbrev aLoc (d : Dev nD) : Loc nD τ sig := (SparseCore.T d).loc main_arg1
abbrev bLoc (d : Dev nD) : Loc nD τ sig := (SparseCore.T d).loc main_arg2
abbrev oLoc (d : Dev nD) : Loc nD τ sig := (SparseCore.T d).loc main_v0

/-- The gathered array of the launch contents: what the result must end as. -/
abbrev goal (d : Dev nD) : Buf (Elt F) (oLoc d) := Cert.Proof.Spec.G (m (wLoc d)) (m (aLoc d))

theorem hdiv : 16 ∣ S16384.size 0 := ⟨1024, rfl⟩
/-- Chunk `i` of a 16384-array: positions `1024 i … 1024 i + 1023`. -/
abbrev chunk (i : Fin 16) : Rect S16384 := Rect.part (s := S16384) (a₀ := 0) hdiv i
abbrev chunkSet (i : Fin 16) : Finset S16384.Idx := (chunk i).set

/-- A task's share of the table: one of sixteen read shares cut off the whole. -/
abbrev tabShare (i : Fin 16) : PosShare TreeShare := Transfers.shareTok fullShare 16 i

abbrev wPts (d : Dev nD) : sProp 𝕄 := wLoc d ↦{fullShare} m (wLoc d)
abbrev aPts (d : Dev nD) : sProp 𝕄 := aLoc d ↦{fullShare} m (aLoc d)
abbrev oPts (d : Dev nD) (f : Buf (Elt F) (oLoc d)) : sProp 𝕄 := oLoc d ↦{fullShare} f
abbrev wChunk (d : Dev nD) (i : Fin 16) : sProp 𝕄 := wLoc d ↦[chunkSet i]{fullShare} m (wLoc d)
abbrev aRead (d : Dev nD) (i : Fin 16) : sProp 𝕄 := aLoc d ↦{tabShare i} m (aLoc d)
abbrev oChunk (d : Dev nD) (i : Fin 16) (f : Buf (Elt F) (oLoc d)) : sProp 𝕄 := oLoc d ↦[chunkSet i]{fullShare} f

/-- What the handshakes carry: the call takes the words, the table and the result whole and brings them back, the result
    at the gathered array; task `i` takes chunk `i` of the words and of the result and a read share of the table, and
    brings them back, its chunk of the result at the gathered array. -/
def P : (K (F := F)).Pay (nD := nD) (Val := Elt F) (Name := ℕ) (U := UU) where
  st := fun q d _ => match q with | 0 => iprop(wPts m d ∗ aPts m d ∗ oPts d (m (oLoc d)))
  dn := fun q d _ => match q with | 0 => iprop(wPts m d ∗ aPts m d ∗ oPts d (goal m d))
  go := fun q d _ i => match q with
    | 0 => iprop(wChunk m d (Fin.cast nSub_zero i) ∗ aRead m d (Fin.cast nSub_zero i) ∗ oChunk d (Fin.cast nSub_zero i) (m (oLoc d)))
  td := fun q d _ i => match q with
    | 0 => iprop(wChunk m d (Fin.cast nSub_zero i) ∗ aRead m d (Fin.cast nSub_zero i) ∗ oChunk d (Fin.cast nSub_zero i) (goal m d))
  x := fun _ _ => iprop(emp)

instance P_storable : (P (F := F) m).IsStorable where
  st q d _ := match q with
    | 0 => (inferInstance : BI.Storable (upEmb : UEmb _ 𝕄) iprop(wPts m d ∗ aPts m d ∗ oPts d (m (oLoc d))))
  dn q d _ := match q with
    | 0 => (inferInstance : BI.Storable (upEmb : UEmb _ 𝕄) iprop(wPts m d ∗ aPts m d ∗ oPts d (goal m d)))
  go q d _ i := match q with
    | 0 => (inferInstance : BI.Storable (upEmb : UEmb _ 𝕄)
        iprop(wChunk m d (Fin.cast nSub_zero i) ∗ aRead m d (Fin.cast nSub_zero i) ∗ oChunk d (Fin.cast nSub_zero i) (m (oLoc d))))
  td q d _ i := match q with
    | 0 => (inferInstance : BI.Storable (upEmb : UEmb _ 𝕄)
        iprop(wChunk m d (Fin.cast nSub_zero i) ∗ aRead m d (Fin.cast nSub_zero i) ∗ oChunk d (Fin.cast nSub_zero i) (goal m d)))

/-- The launch memory's words are in range on every device. -/
def PreOK : Prop := ∀ d : Dev nD, Cert.Proof.Spec.InRange (m (wLoc d))

end Cert.Proof.KI

end
-- ==== Proof.KITile.lean ====
/-
  One task of the gather kernel, at a symbolic vector subcore.

  The task holds chunk `i` of the words and of the result outright and a read share of the table. It copies the table
  and its words into its own memory and waits for both copies; then, sixteen lanes at a time, it reads sixteen words,
  reads the table at the positions they name, and stores the sixteen entries — after trip `k` the first `16 k`
  lanes of its result buffer hold the gathered entries —; then it copies the 1024 entries to its chunk of the result.
  Every word is below 1000 (the launch memory's range), so every position is inside the table's 1001 entries.
-/
import proofs.«200234_g71571335020938_cont_9to1c4b_332_23_alg».proof.Proof.KIDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile

variable (d : Dev nD) (L : grid0.Coords)

abbrev cV (L : grid0.Coords) : Fin τ.nSC := (L 0).castLE hcore0
abbrev jV (L : grid0.Coords) : Fin τ.nSub := (L 1).castLE hsub0
theorem bound_one : grid0.bound 1 = 16 := rfl
abbrev jL (L : grid0.Coords) : Fin 16 := Fin.cast bound_one (L 1)

/-- The arrays and a task's three buffers (the table's copy, the words' copy, the gathered entries), as the kernel names them. -/
abbrev wV : Memref sig .scVector .hbm S16384 .i32 := Memref.whole main_arg0_scv
abbrev aV : Memref sig .scVector .hbm S1001 .f32 := Memref.whole main_arg1_scv
abbrev oV : Memref sig .scVector .hbm S16384 .f32 := Memref.whole main_v0_scv
abbrev sA : Memref sig .scVector .vmem S1001 .f32 := Memref.whole cc0_scratch0
abbrev sW : Memref sig .scVector .vmem S1024 .i32 := Memref.whole cc0_scratch1
abbrev sO : Memref sig .scVector .vmem S1024 .f32 := Memref.whole cc0_scratch2

/-- The task's chunk as the kernel slices it: 1024 positions from its computed offset. -/
abbrev chunkK (L : grid0.Coords) : Rect S16384 := Rect.unit (s := S16384) (k0_off1 L) S1024.size (k0_off1_inb L)
abbrev wChunkK (L : grid0.Coords) : Memref sig .scVector .hbm S1024 .i32 := (wV).slice (chunkK L) (fun _ => rfl)
abbrev oChunkK (L : grid0.Coords) : Memref sig .scVector .hbm S1024 .f32 := (oV).slice (chunkK L) (fun _ => rfl)

/-- The kernel's offset is chunk `L 1`'s: the one SparseCore of the grid has index 0. -/
theorem chunkK_eq : chunkK L = chunk (jL L) := by
  unfold chunkK chunk Rect.part Rect.block
  have h0 : (L 0).val = 0 := by have : (L 0).val < 1 := (L 0).isLt; omega
  congr 1 <;> funext a
  · rw [k0_off1_eq]
    match a with
    | 0 => simp [Shape.partIx, Shape.partSize, h0]; try omega
  · match a with
    | 0 => simp [Shape.partSize]

theorem set_wChunkK : (wChunkK L).view.set = chunkSet (jL L) := by
  show ((wV).view.slice (chunkK L)).set = (chunk (jL L)).set
  rw [View.set_slice, chunkK_eq]; exact Finset.map_refl
theorem set_oChunkK : (oChunkK L).view.set = chunkSet (jL L) := by
  show ((oV).view.slice (chunkK L)).set = (chunk (jL L)).set
  rw [View.set_slice, chunkK_eq]; exact Finset.map_refl

theorem pts_wChunkK (f : Buf (Elt F) (wLoc d)) :
    ((wChunkK L).view.loc (V d (cV L) (jV L)) ↦[(wChunkK L).view.set]{fullShare} f : sProp 𝕄) = wLoc d ↦[chunkSet (jL L)]{fullShare} f := by
  rw [set_wChunkK]
theorem pts_oChunkK (f : Buf (Elt F) (oLoc d)) :
    ((oChunkK L).view.loc (V d (cV L) (jV L)) ↦[(oChunkK L).view.set]{fullShare} f : sProp 𝕄) = oLoc d ↦[chunkSet (jL L)]{fullShare} f := by
  rw [set_oChunkK]
theorem pts_aV (q : PosShare TreeShare) (f : Buf (Elt F) (aLoc d)) :
    ((aV).view.loc (V d (cV L) (jV L)) ↦{q} f : sProp 𝕄) = aLoc d ↦{q} f := rfl
theorem pts_sA (f : Buf (Elt F) ((V d (cV L) (jV L)).loc cc0_scratch0)) :
    ((sA).view.loc (V d (cV L) (jV L)) ↦{fullShare} f : sProp 𝕄) = (V d (cV L) (jV L)).loc cc0_scratch0 ↦{fullShare} f := rfl
theorem pts_sW (f : Buf (Elt F) ((V d (cV L) (jV L)).loc cc0_scratch1)) :
    ((sW).view.loc (V d (cV L) (jV L)) ↦{fullShare} f : sProp 𝕄) = (V d (cV L) (jV L)).loc cc0_scratch1 ↦{fullShare} f := rfl
theorem pts_sO (f : Buf (Elt F) ((V d (cV L) (jV L)).loc cc0_scratch2)) :
    ((sO).view.loc (V d (cV L) (jV L)) ↦{fullShare} f : sProp 𝕄) = (V d (cV L) (jV L)).loc cc0_scratch2 ↦{fullShare} f := rfl

/-- The task's three semaphores: the table copy's, the words copy's, the write-out's. -/
abbrev cAcell (d : Dev nD) (c : Fin τ.nSC) (i : Fin τ.nSub) : GSem nD τ sig := (V d c i, .dma cc0_scratch3.sem)
abbrev cWcell (d : Dev nD) (c : Fin τ.nSC) (i : Fin τ.nSub) : GSem nD τ sig := (V d c i, .dma cc0_scratch4.sem)
abbrev cOcell (d : Dev nD) (c : Fin τ.nSC) (i : Fin τ.nSub) : GSem nD τ sig := (V d c i, .dma cc0_scoped0.sem)

theorem ownSems0_V :
    (ownSems0 (V d (cV L) (jV L)) : sProp 𝕄)
      = iprop(semVal (cAcell d (cV L) (jV L)) 0 ∗ semVal (cWcell d (cV L) (jV L)) 0 ∗ semVal (cOcell d (cV L) (jV L)) 0
          ∗ bigSep ((((ownCells (V d (cV L) (jV L))).erase (cAcell d (cV L) (jV L))).erase (cWcell d (cV L) (jV L))).erase (cOcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch3.sem : SemLoc sig).isScoped .scVector = true; decide⟩),
    SparseCore.bigSep_erase' (Finset.mem_erase.mpr ⟨by simp [cAcell, cWcell]; decide, (mem_ownCells (g := cWcell d (cV L) (jV L))).mpr ⟨rfl, by
      show (SemLoc.dma cc0_scratch4.sem : SemLoc sig).isScoped .scVector = true; decide⟩⟩),
    SparseCore.bigSep_erase' (Finset.mem_erase.mpr ⟨by simp [cWcell, cOcell]; decide, Finset.mem_erase.mpr ⟨by simp [cAcell, cOcell]; decide,
      (mem_ownCells (g := cOcell d (cV L) (jV L))).mpr ⟨rfl, by show (SemLoc.dma cc0_scoped0.sem : SemLoc sig).isScoped .scVector = true; decide⟩⟩⟩)]

/-- The three buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- The task's words: word `y` of its chunk of the launch contents. -/
def wordsOf : S1024.Idx → BitVec 32 := (wChunkK L).view.read (Elt F) (m (wLoc d))

/-- The loop's invariant before trip `k`: the table's copy holds the table, the words' copy the task's words, and the
    first `16 k` lanes of the result buffer the table's entries at the positions those words name. -/
def inv (k : Nat) (_ : PUnit) : sProp 𝕄 :=
  iprop((∃ ta : Buf (Elt F) ((V d (cV L) (jV L)).loc cc0_scratch0), ⌜∀ x, ta x = m (aLoc d) x⌝ ∗ (sA).view.loc (V d (cV L) (jV L)) ↦{fullShare} ta)
    ∗ (∃ tw : Buf (Elt F) ((V d (cV L) (jV L)).loc cc0_scratch1), ⌜∀ y, tw y = wordsOf m d L y⌝ ∗ (sW).view.loc (V d (cV L) (jV L)) ↦{fullShare} tw)
    ∗ (∃ tg : Buf (Elt F) ((V d (cV L) (jV L)).loc cc0_scratch2),
        ⌜∀ y : S1024.Idx, (y 0).val < 16 * k → tg y = m (aLoc d) (Cert.Proof.Spec.pos (wordsOf m d L y))⌝ ∗ (sO).view.loc (V d (cV L) (jV L)) ↦{fullShare} tg))

/-- A word of the task is a word of the launch contents, so below 1000. -/
theorem wordsOf_eq (y : S1024.Idx) : wordsOf m d L y = m (wLoc d) ((wChunkK L).view.emb y) :=
  (View.read_apply _ _).trans (cast_eq _ _)
theorem words_lt (hpre : PreOK m) (y : S1024.Idx) : (wordsOf m d L y).toNat < 1000 := by
  rw [wordsOf_eq]; exact hpre d _

/-- The sixteen words a trip reads pass the kernel's check: each names a position inside the table. -/
theorem chk_ok (hpre : PreOK m) (tw : Buf (Elt F) ((V d (cV L) (jV L)).loc cc0_scratch1)) (htw : ∀ y, tw y = wordsOf m d L y)
    (k : Fin k0_t1_loop.trips) :
    k0_chk1 (View.readAt (Elt F) (sW).view (Rect.unit (s := S1024) (k0_off2 k) S16.size (k0_off2_inb k)).toLoadRect tw) := by
  intro a x
  obtain rfl : a = 0 := Subsingleton.elim _ _
  show (View.readAt (Elt F) (sW).view (Rect.unit (s := S1024) (k0_off2 k) S16.size (k0_off2_inb k)).toLoadRect tw x).toNat < 1001
  simp only [View.readAt_apply, Memref.view_whole, View.read_whole]
  rw [htw]; exact Nat.lt_trans (words_lt m d L hpre _) (by decide)

theorem pts_sA_access (f : Buf (Elt F) ((V d (cV L) (jV L)).loc cc0_scratch0)) :
    (((sA).access (.whole S1001)).loc (V d (cV L) (jV L)) ↦{fullShare} f : sProp 𝕄) = (sA).view.loc (V d (cV L) (jV L)) ↦{fullShare} f := rfl

/-- The entry the result must hold at lane `y` of the task's buffer: the table at the position word `y` names. -/
abbrev target (y : S1024.Idx) : Elt F .f32 := m (aLoc d) (Cert.Proof.Spec.pos (wordsOf m d L y))

/-- The sixteen lanes trip `k` reads and the sixteen it stores are the same lanes `16 k … 16 k + 15`. -/
theorem lanes_eq (k : Fin k0_t1_loop.trips) (x : S16.Idx) :
    (Rect.unit (s := S1024) (k0_off2 k) S16.size (k0_off2_inb k)).toLoadRect.idx x
      = (Rect.unit (s := S1024) (k0_off3 k) S16.size (k0_off3_inb k)).emb x := by
  funext a; apply Fin.ext
  obtain rfl : a = 0 := Subsingleton.elim _ _
  have h2 : k0_off2 k 0 = 16 * k.val := congrFun (k0_off2_eq k) 0
  have h3 : k0_off3 k 0 = 16 * k.val := congrFun (k0_off3_eq k) 0
  show k0_off2 k 0 + 1 * (x 0).val = k0_off3 k 0 + 1 * (x 0).val
  omega

/-- A lane of the indexed load: the table's copy holds the table and the words' copy the task's words, so lane `x` of
    trip `k` reads the table at the position word `16 k + x` names. -/
theorem lane_ok (hpre : PreOK m) (k : Fin k0_t1_loop.trips)
    (ta : Buf (Elt F) ((V d (cV L) (jV L)).loc cc0_scratch0)) (hta : ∀ x, ta x = m (aLoc d) x)
    (tw : Buf (Elt F) ((V d (cV L) (jV L)).loc cc0_scratch1)) (htw : ∀ y, tw y = wordsOf m d L y)
    (h : ∀ a x, ((![View.readAt (Elt F) (sW).view (Rect.unit (s := S1024) (k0_off2 k) S16.size (k0_off2_inb k)).toLoadRect tw] : Fin 1 → IVec S16 32) a x).toNat < S1001.size a)
    (x : S16.Idx) :
    loadIdx (View.read (Elt F) ((sA).access (Rect.whole S1001)) ta)
        ![View.readAt (Elt F) (sW).view (Rect.unit (s := S1024) (k0_off2 k) S16.size (k0_off2_inb k)).toLoadRect tw] h x
      = target m d L ((Rect.unit (s := S1024) (k0_off3 k) S16.size (k0_off3_inb k)).emb x) := by
  have e : View.readAt (Elt F) (sW).view (Rect.unit (s := S1024) (k0_off2 k) S16.size (k0_off2_inb k)).toLoadRect tw x
      = wordsOf m d L ((Rect.unit (s := S1024) (k0_off3 k) S16.size (k0_off3_inb k)).emb x) := by
    simp only [View.readAt_apply, Memref.view_whole, View.read_whole]
    rw [htw, lanes_eq]
  show View.read (Elt F) ((sA).access (Rect.whole S1001)) ta (idxAt _ h x) = _
  rw [show View.read (Elt F) ((sA).access (Rect.whole S1001)) ta = ta from Memref.read_access_whole _ _ _, hta]
  unfold target
  congr 1
  funext a; apply Fin.ext
  obtain rfl : a = 0 := Subsingleton.elim _ _
  show (View.readAt (Elt F) (sW).view (Rect.unit (s := S1024) (k0_off2 k) S16.size (k0_off2_inb k)).toLoadRect tw x).toNat
      = (wordsOf m d L ((Rect.unit (s := S1024) (k0_off3 k) S16.size (k0_off3_inb k)).emb x)).toNat % 1001
  rw [e, Nat.mod_eq_of_lt (Nat.lt_trans (words_lt m d L hpre _) (by decide))]

/-- A trip's store extends the gathered lanes by sixteen: the lanes below `16 k` are kept, the sixteen written are
    the gathered entries. -/
theorem store_step (k : Fin k0_t1_loop.trips) (tg : Buf (Elt F) ((V d (cV L) (jV L)).loc cc0_scratch2)) (v : S16.Idx → Elt F .f32)
    (htg : ∀ y : S1024.Idx, (y 0).val < 16 * k.val → tg y = target m d L y)
    (hv : ∀ x : S16.Idx, v x = target m d L ((Rect.unit (s := S1024) (k0_off3 k) S16.size (k0_off3_inb k)).emb x)) :
    ∀ y : S1024.Idx, (y 0).val < 16 * (k.val + 1) →
      (sO).view.writes (Elt F) tg [⟨Rect.unit (s := S1024) (k0_off3 k) S16.size (k0_off3_inb k), v⟩] y = target m d L y := by
  intro y hy
  rw [View.writes_singleton]
  have hoff : k0_off3 k = ![16 * k.val] := k0_off3_eq k
  by_cases hlt : (y 0).val < 16 * k.val
  · rw [View.write_of_not_mem, htg y hlt]
    intro hmem
    obtain ⟨x, -, hx⟩ := Finset.mem_map.mp hmem
    have h0 := congrArg (fun i : S1024.Idx => (i 0).val) hx
    have h1 : (((sO).view.slice (Rect.unit (s := S1024) (k0_off3 k) S16.size (k0_off3_inb k))).emb x 0).val = k0_off3 k 0 + 1 * (x 0).val := rfl
    simp only [h1, hoff] at h0
    simp at h0
    omega
  · have hx0 : (y 0).val - 16 * k.val < 16 := by omega
    let x : S16.Idx := Idealize.ShloMosaic.ValueIdx.ix1 ⟨(y 0).val - 16 * k.val, hx0⟩
    have hy' : y = ((sO).view.slice (Rect.unit (s := S1024) (k0_off3 k) S16.size (k0_off3_inb k))).emb x := by
      funext a; apply Fin.ext
      obtain rfl : a = 0 := Subsingleton.elim _ _
      show (y 0).val = k0_off3 k 0 + 1 * (x 0).val
      rw [hoff]
      show (y 0).val = 16 * k.val + 1 * ((y 0).val - 16 * k.val)
      omega
    rw [hy', View.write_emb_of_mem _ _ (Finset.mem_univ x), cast_eq, hv]
    rfl

/-- What the two copies land: the table, and the task's words. -/
theorem land_tab (fa : Buf (Elt F) ((V d (cV L) (jV L)).loc cc0_scratch0)) (pay : S1001.Idx → Elt F .f32)
    (hpay : pay = (aV).view.read (Elt F) (m (aLoc d))) :
    ∀ x, View.write (Elt F) (sA).view fa pay Finset.univ x = m (aLoc d) x := by
  subst hpay; intro x
  exact congrFun (View.write_whole_univ _ _ _) x
theorem land_words (fw : Buf (Elt F) ((V d (cV L) (jV L)).loc cc0_scratch1)) (pay : S1024.Idx → Elt F .i32)
    (hpay : pay = (wChunkK L).view.read (Elt F) (m (wLoc d))) :
    ∀ y, View.write (Elt F) (sW).view fw pay Finset.univ y = wordsOf m d L y := by
  subst hpay; intro y
  show _ = (wChunkK L).view.read (Elt F) (m (wLoc d)) y
  exact congrFun (View.write_whole_univ _ _ _) y

/-- The loop runs 64 trips: 64 × 16 lanes are the buffer's 1024. -/
theorem trips_eq : Scf.trips k0_t1_loop.lb k0_t1_loop.ub k0_t1_loop.st = 64 := by decide

/-- What the write-out leaves in the task's chunk of the result: on the chunk's elements, the gathered array. -/
theorem out_goal (tg : Buf (Elt F) ((V d (cV L) (jV L)).loc cc0_scratch2)) (htg : ∀ y : S1024.Idx, tg y = target m d L y)
    (pay : S1024.Idx → Elt F .f32) (hpay : pay = (sO).view.read (Elt F) tg) :
    ((oChunkK L).view.loc (V d (cV L) (jV L)) ↦[(oChunkK L).view.set]{fullShare}
        (oChunkK L).view.writes (Elt F) (m (oLoc d)) [⟨Rect.whole S1024, pay⟩] : sProp 𝕄)
      = oLoc d ↦[chunkSet (jL L)]{fullShare} goal m d := by
  subst hpay
  rw [← pts_oChunkK (F := F) d L (goal m d)]
  refine pointsTo_congr fun i hi => ?_
  obtain ⟨y, -, rfl⟩ := Finset.mem_map.mp hi
  rw [View.writes_singleton]
  have hy : (oChunkK L).view.emb y = ((oChunkK L).view.slice (Rect.whole S1024)).emb y :=
    congrArg (oChunkK L).view.emb (Rect.emb_whole_apply S1024 y).symm
  rw [hy, View.write_emb_of_mem _ _ (Finset.mem_univ y), cast_eq, ← hy]
  show tg y = m (aLoc d) (Cert.Proof.Spec.pos (m (wLoc d) ((oChunkK L).view.emb y)))
  rw [htg y]
  show m (aLoc d) (Cert.Proof.Spec.pos (wordsOf m d L y)) = _
  rw [wordsOf_eq]
  rfl

variable [FloatOps F]

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (wChunk m d (jL L) ∗ aRead m d (jL L) ∗ oChunk d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_kernel L wV (Memref.isWhole_whole _) aV (Memref.isWhole_whole _) oV (Memref.isWhole_whole _)
            sA (Memref.isWhole_whole _) sW (Memref.isWhole_whole _) sO (Memref.isWhole_whole _) cc0_scratch3 cc0_scratch4 cc0_scoped0)
          fun _ => iprop((wChunk m d (jL L) ∗ aRead m d (jL L) ∗ oChunk d (jL L) (goal m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_kernel_eq_skeleton]; unfold cc0__gather_kernel_skel
  rw [(K (F := F)).scopedBufs_V hF d (cV L) (jV L), SparseCore.Cfg.scopedSems0_V (Val := Elt F) d (cV L) (jV L), ownSems0_V, ownBufs_V]
  iintro ⟨#Hlv, -, ⟨Hw, Ha, Ho⟩, ⟨⟨%fa, Hsa⟩, ⟨%fw, Hsw⟩, ⟨%fo, Hso⟩, Hbufs⟩, ⟨HsemA, HsemW, HsemO, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hw' := (Entails.of_eq (pts_wChunkK (F := F) d L _).symm) $$ Hw
  ihave Ho' := (Entails.of_eq (pts_oChunkK (F := F) d L _).symm) $$ Ho
  ihave Ha' := (Entails.of_eq (pts_aV (F := F) d L _ _).symm) $$ Ha
  ihave Hsa' := (Entails.of_eq (pts_sA (F := F) d L _).symm) $$ Hsa
  ihave Hsw' := (Entails.of_eq (pts_sW (F := F) d L _).symm) $$ Hsw
  ihave Hso' := (Entails.of_eq (pts_sO (F := F) d L _).symm) $$ Hso
  sl_exec
  sl_for (inv m d L) $$ [Hsa' Hsw' Hso']
  case region =>
    intro k _
    unfold inv
    iintro ⟨⟨%ta, %hta, Hsa⟩, ⟨%tw, %htw, Hsw⟩, ⟨%tg, %htg, Hso⟩⟩
    have hchk := chk_ok m d L hpre tw htw k
    sl_exec
    ihave Hsa' := (Entails.of_eq (pts_sA_access (F := F) d L _).symm) $$ Hsa
    iapply (SparseCore.wp_vectorLoadIdx 𝒱₀ (V d (cV L) (jV L)) none Set.univ (base := (sA)) (S := Finset.univ) (q := fullShare) (Finset.subset_univ _)) $$ Hsa'; iintro Hsa'
    ihave Hsa := (Entails.of_eq (pts_sA_access (F := F) d L _)) $$ Hsa'
    sl_exec
    sl_step
    isplitl [Hsa]
    · iexists ta; isplitr; · ipureintro; exact hta
      iexact Hsa
    isplitl [Hsw]
    · iexists tw; isplitr; · ipureintro; exact htw
      iexact Hsw
    iexists _; isplitr
    swap; · iexact Hso
    ipureintro
    exact store_step m d L k tg _ htg (lane_ok m d L hpre k ta hta tw htw _)
  · unfold inv
    isplitl [Hsa']
    · iexists _; isplitr; · ipureintro; exact land_tab m d L fa _ rfl
      iexact Hsa'
    isplitl [Hsw']
    · iexists _; isplitr; · ipureintro; exact land_words m d L fw _ rfl
      iexact Hsw'
    iexists fo; isplitr
    · ipureintro; intro y hy; omega
    iexact Hso'
  iintro %_ HI
  unfold inv
  icases HI with ⟨⟨%ta, %hta, Hsa⟩, ⟨%tw, %htw, Hsw⟩, ⟨%tg, %htg, Hso⟩⟩
  sl_exec
  sl_step
  have hall : ∀ y : S1024.Idx, tg y = target m d L y := fun y => htg y (by
    rw [trips_eq]; have : (y 0).val < 1024 := (y 0).isLt; omega)
  isplitl [Hw' Ha' Ho']
  · isplitl [Hw']; · iapply (Entails.of_eq (pts_wChunkK (F := F) d L _)); iexact Hw'
    isplitl [Ha']; · iexact Ha'
    iapply (Entails.of_eq (out_goal m d L tg hall _ rfl)); iexact Ho'
  isplitl [Hsa Hsw Hso Hbufs]
  · isplitl [Hsa]; · iexists _; iexact Hsa
    isplitl [Hsw]; · iexists _; iexact Hsw
    isplitl [Hso]; · iexists _; iexact Hso
    iexact Hbufs
  isplitl [HsemA HsemW HsemO Hsems]
  · isplitl [HsemA]; · iexact HsemA
    isplitl [HsemW]; · iexact HsemW
    isplitl [HsemO]; · iexact HsemO
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-! ## The launch theorem's obligation for the task -/

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_kernel (coordsV c s)
          wV (Memref.isWhole_whole _) aV (Memref.isWhole_whole _) oV (Memref.isWhole_whole _)
          sA (Memref.isWhole_whole _) sW (Memref.isWhole_whole _) sO (Memref.isWhole_whole _) cc0_scratch3 cc0_scratch4 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the one call meets the launch theorem's obligation: `tile_body` at the task's coordinates. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

end Cert.Proof.KI

end
-- ==== Proof.KILaunch.lean ====
/-
  The launch of the gather kernel: from one vector subcore's task to the run of the whole program.

  Given that one task — from chunk i of the timestep words, a read share of the table and chunk i of the result, to the
  same with its chunk of the result holding the gathered entries — runs correctly, the whole program runs and ends with
  the result equal to the gathered array and the three arguments unchanged. What is shown here:

  * The split. The sixteen chunks of a 16384-array are pairwise disjoint and cover it, so an array held whole is its
    sixteen chunks held separately, and conversely when all sixteen hold the SAME contents. The table held whole is a
    remainder and sixteen read shares; the remainder stays with the sequencer while the tasks run, and with the sixteen
    shares back it is the table held whole again. So the call's operands split into the sixteen tasks' operands, and
    the sixteen tasks' results — each its chunk of the result at the gathered array — join to the call's results.
  * The launch element: the handshakes' rounds; the transfers' counters are dropped, nothing else is needed.
  * @main on the TensorCore is the one call: it hands the words, the table and the result over and gets them back, the
    result at the gathered array; the third argument, which the kernel never touches, stays on the TensorCore's side.
  * The final memory agrees with the four arrays held at the end, which is the claim's post.
-/
import proofs.«200234_g71571335020938_cont_9to1c4b_332_23_alg».proof.Proof.KIDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The split of a call's operands among the sixteen tasks -/

/-- Two different chunks share no position. -/
theorem chunks_disjoint : ∀ i ∈ (Finset.univ : Finset (Fin 16)), ∀ j ∈ (Finset.univ : Finset (Fin 16)), i ≠ j → Disjoint (chunkSet i) (chunkSet j) :=
  fun i _ j _ h => Rect.part_disjoint hdiv h

/-- The sixteen chunks are every position. -/
theorem chunks_cover : (Finset.univ : Finset (Fin 16)).biUnion chunkSet = Finset.univ := Rect.biUnion_part hdiv

/-- The words held whole are their sixteen chunks held separately. -/
theorem wPts_chunks (d : Dev nD) (f : Buf (Elt F) (wLoc d)) :
    (wLoc d ↦{fullShare} f : sProp 𝕄) = bigSep Finset.univ fun i : Fin 16 => wLoc d ↦[chunkSet i]{fullShare} f := by
  rw [← pointsTo_biUnion Finset.univ (ℓ := wLoc d) chunkSet chunks_disjoint, chunks_cover]; try rfl

/-- The result held whole, at one contents, is its sixteen chunks held separately at those contents. -/
theorem oPts_chunks (d : Dev nD) (f : Buf (Elt F) (oLoc d)) :
    (oLoc d ↦{fullShare} f : sProp 𝕄) = bigSep Finset.univ fun i : Fin 16 => oLoc d ↦[chunkSet i]{fullShare} f := by
  rw [← pointsTo_biUnion Finset.univ (ℓ := oLoc d) chunkSet chunks_disjoint, chunks_cover]; try rfl

/-- A family over the kernel's sixteen tasks is a family over sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The call's operands split into the tasks' — the table's remainder kept — and the tasks' results join to the call's:
    the chunks of the words rejoin, the read shares with the remainder are the table whole, and the sixteen chunks of
    the result, all at the gathered array, are the result whole at the gathered array. -/
theorem vecSplit : (K (F := F)).VecSplit' (P m) 0 := by
  intro d c
  show iprop(wPts m d ∗ aPts m d ∗ oPts d (m (oLoc d))) ⊢ |={Set.univ}=> iprop(
      (bigSep Finset.univ fun i : Fin ((K (F := F)).nSub 0) =>
        iprop(wChunk m d (Fin.cast nSub_zero i) ∗ aRead m d (Fin.cast nSub_zero i) ∗ oChunk d (Fin.cast nSub_zero i) (m (oLoc d))))
      ∗ ((bigSep Finset.univ fun i : Fin ((K (F := F)).nSub 0) =>
          iprop(wChunk m d (Fin.cast nSub_zero i) ∗ aRead m d (Fin.cast nSub_zero i) ∗ oChunk d (Fin.cast nSub_zero i) (goal m d)))
          -∗ iprop(wPts m d ∗ aPts m d ∗ oPts d (goal m d))))
  rw [bigSep_tasks (F := F) (fun i => iprop(wChunk m d i ∗ aRead m d i ∗ oChunk d i (m (oLoc d)))),
    bigSep_tasks (F := F) (fun i => iprop(wChunk m d i ∗ aRead m d i ∗ oChunk d i (goal m d))), bigSep_sep', bigSep_sep', bigSep_sep', bigSep_sep']
  unfold wPts oPts wChunk oChunk
  rw [wPts_chunks, oPts_chunks, oPts_chunks]
  iintro ⟨Hw, Ha, Ho⟩
  ihave Ha' := (Transfers.pointsTo_toks_split fullShare 16) $$ Ha
  icases Ha' with ⟨Hrem, Htoks⟩
  imodintro
  isplitl [Hw Htoks Ho]
  · isplitl [Hw]; · iexact Hw
    isplitl [Htoks]; · iexact Htoks
    iexact Ho
  iintro ⟨Hw, Htoks, Ho⟩
  isplitl [Hw]; · iexact Hw
  isplitl [Hrem Htoks]
  · iapply (Transfers.pointsTo_toks_join fullShare 16)
    isplitl [Hrem] <;> iassumption
  iexact Ho

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The TensorCore's arrays: the three arguments and the result. -/
theorem unscopedBufs_eq (d : Dev nD) (W : (b : Ref sig .tc) → Buf (Elt F) ((d.tc : Thread nD τ).loc b)) :
    (unscopedBufs d W : sProp 𝕄) = iprop((wLoc d ↦{fullShare} W main_arg0) ∗ (aLoc d ↦{fullShare} W main_arg1) ∗ (bLoc d ↦{fullShare} W main_arg2)
      ∗ oLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

theorem st0_eq (d : Dev nD) : (bigSep Finset.univ fun c : Fin ((K (F := F)).nCore 0) => (P m).st 0 d c) = iprop(wPts m d ∗ aPts m d ∗ oPts d (m (oLoc d))) :=
  bigSep_univ_of_subsingleton (0 : Fin 1)
theorem dn0_eq (d : Dev nD) : (bigSep Finset.univ fun c : Fin ((K (F := F)).nCore 0) => (P m).dn 0 d c) = iprop(wPts m d ∗ aPts m d ∗ oPts d (goal m d)) :=
  bigSep_univ_of_subsingleton (0 : Fin 1)

/-- The third argument, which the kernel never touches. -/
abbrev bPts (d : Dev nD) : sProp 𝕄 := bLoc d ↦{fullShare} m (bLoc d)

/-- What the TensorCore ends with: the three arguments at their launch contents, the result at the gathered array. -/
abbrev FIN (d : Dev nD) : sProp 𝕄 := iprop(wPts m d ∗ aPts m d ∗ bPts m d ∗ oPts d (goal m d))

variable [FloatOps F]

/-- @main on device `d`'s TensorCore: the one call, from the words, the table and the result; the third argument kept aside. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hbd, ⟨Hw, Ha, Hb, Ho⟩, -, -⟩, -⟩
  iapply ((K (F := F)).wp_run (D (F := F)) 𝒱 (EH := EH) (P := P m) κ d 0) $$ [Hst Hw Ha Hb Ho]
  isplitr; · iexact Hctx
  isplitl [Hst]; · iexact Hst
  isplitl [Hw Ha Ho]
  · rw [st0_eq]
    isplitl [Hw]; · iexact Hw
    isplitl [Ha]; · iexact Ha
    iexact Ho
  iintro ⟨Hst, Hdn⟩
  ihave Hdn' := (Entails.of_eq (dn0_eq m d)) $$ Hdn
  icases Hdn' with ⟨Hw, Ha, Ho⟩
  imodintro
  isplitl [Hst]; · iexact Hst
  isplitl [Hw]; · iexact Hw
  isplitl [Ha]; · iexact Ha
  isplitl [Hb]; · iexact Hb
  iexact Ho

/-- What the final memory must read on device `d`. -/
def fq (d : Dev nD) (s' : Phys nD τ sig (Elt F)) : Prop :=
  s'.mem.mem (oLoc d) = goal m d ∧ s'.mem.mem (wLoc d) = m (wLoc d) ∧ s'.mem.mem (aLoc d) = m (aLoc d) ∧ s'.mem.mem (bLoc d) = m (bLoc d)

omit [FloatOps F] in
/-- The final memory agrees with each of the four arrays held at the end. -/
theorem hfin (d : Dev nD) (s' : Phys nD τ sig (Elt F)) : iprop(FIN m d ∗ SI s') ⊢ (⌜fq m d s'⌝ : sProp 𝕄) := by
  iintro ⟨⟨Hw, Ha, Hb, Ho⟩, HSI⟩
  ihave H := (persistent_entails_right (SI_pointsTo_agree (st := s') (ℓ := wLoc d) (I := Finset.univ) (q := fullShare) (f := m (wLoc d)))) $$ [HSI Hw]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h3, HSI, -⟩
  ihave H := (SI_pointsTo_agree (st := s') (ℓ := oLoc d) (I := Finset.univ) (q := fullShare) (f := goal m d)) $$ [HSI Ho]
  · isplitl [HSI] <;> iassumption
  icases H with %h4
  ipureintro
  exact ⟨funext fun i => h4 i (Finset.mem_univ i), funext fun i => h1 i (Finset.mem_univ i), funext fun i => h2 i (Finset.mem_univ i),
    funext fun i => h3 i (Finset.mem_univ i)⟩

/-! ## The program's run -/

omit [FloatOps F] in
/-- On every device the result ends as the gathered array of the launch contents and the three arguments unchanged. -/
def QC (m : (ℓ : Loc nD τ sig) → Buf (Elt F) ℓ) : PUnit × MemSt nD τ sig (Elt F) → Prop := fun r => ∀ c : Dev nD,
  r.2.mem (oLoc c) = goal m c ∧ r.2.mem (wLoc c) = m (wLoc c) ∧ r.2.mem (aLoc c) = m (aLoc c) ∧ r.2.mem (bLoc c) = m (bLoc c)

/-- The whole program's run, given one task's. -/
theorem run_main [∀ e, Nonempty (Elt F e)] (m : (ℓ : Loc nD τ sig) → Buf (Elt F) ℓ) (ρ : Dev nD → PrngReg)
    (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.KBDefs.lean ====
/-
  The gather kernel as the launch theorem sees it, and what the launch's handshakes carry.

  Sixteen vector subcores of one SparseCore each take one chunk of 1024 timestep words. A task copies the whole
  table and its chunk of words into its own memory, looks each word up in the table sixteen lanes at a time, and
  copies the 1024 looked-up entries to its chunk of the result. The call hands the SparseCore the three arrays whole;
  the sequencer hands task `i` chunk `i` of the words and of the result outright and a READ SHARE of the table
  (every task reads all of it); a task hands back its chunk of the result holding the gathered entries
  (`Spec.G` of the launch contents), and the sixteen chunks are the whole result.
  The tasks only make local copies and wait for them: their semaphores need no schedule, only counters.
-/
import proofs.«200234_g71571335020938_cont_9to1c4b_332_23_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«200234_g71571335020938_cont_9to1c4b_332_23_alg».proof.Proof.Gen.Kernel
import proofs.«200234_g71571335020938_cont_9to1c4b_332_23_alg».proof.Proof.Gen.Kernel.Skeleton
import proofs.«200234_g71571335020938_cont_9to1c4b_332_23_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays and the chunks -/

variable (m : (ℓ : Loc nD τ sig) → Buf (Elt F) ℓ) (ρ : Dev nD → PrngReg)

/-- The timestep words, the table, the unused third argument, and the result, as locations of device `d`. -/
abbrev wLoc (d : Dev nD) : Loc nD τ sig := (SparseCore.T d).loc main_arg0
abbrev aLoc (d : Dev nD) : Loc nD τ sig := (SparseCore.T d).loc main_arg1
abbrev bLoc (d : Dev nD) : Loc nD τ sig := (SparseCore.T d).loc main_arg2
abbrev oLoc (d : Dev nD) : Loc nD τ sig := (SparseCore.T d).loc main_v0

/-- The gathered array of the launch contents: what the result must end as. -/
abbrev goal (d : Dev nD) : Buf (Elt F) (oLoc d) := Cert.Proof.Spec.G (m (wLoc d)) (m (aLoc d))

theorem hdiv : 16 ∣ S16384.size 0 := ⟨1024, rfl⟩
/-- Chunk `i` of a 16384-array: positions `1024 i … 1024 i + 1023`. -/
abbrev chunk (i : Fin 16) : Rect S16384 := Rect.part (s := S16384) (a₀ := 0) hdiv i
abbrev chunkSet (i : Fin 16) : Finset S16384.Idx := (chunk i).set

/-- A task's share of the table: one of sixteen read shares cut off the whole. -/
abbrev tabShare (i : Fin 16) : PosShare TreeShare := Transfers.shareTok fullShare 16 i

abbrev wPts (d : Dev nD) : sProp 𝕄 := wLoc d ↦{fullShare} m (wLoc d)
abbrev aPts (d : Dev nD) : sProp 𝕄 := aLoc d ↦{fullShare} m (aLoc d)
abbrev oPts (d : Dev nD) (f : Buf (Elt F) (oLoc d)) : sProp 𝕄 := oLoc d ↦{fullShare} f
abbrev wChunk (d : Dev nD) (i : Fin 16) : sProp 𝕄 := wLoc d ↦[chunkSet i]{fullShare} m (wLoc d)
abbrev aRead (d : Dev nD) (i : Fin 16) : sProp 𝕄 := aLoc d ↦{tabShare i} m (aLoc d)
abbrev oChunk (d : Dev nD) (i : Fin 16) (f : Buf (Elt F) (oLoc d)) : sProp 𝕄 := oLoc d ↦[chunkSet i]{fullShare} f

/-- What the handshakes carry: the call takes the words, the table and the result whole and brings them back, the result
    at the gathered array; task `i` takes chunk `i` of the words and of the result and a read share of the table, and
    brings them back, its chunk of the result at the gathered array. -/
def P : (K (F := F)).Pay (nD := nD) (Val := Elt F) (Name := ℕ) (U := UU) where
  st := fun q d _ => match q with | 0 => iprop(wPts m d ∗ aPts m d ∗ oPts d (m (oLoc d)))
  dn := fun q d _ => match q with | 0 => iprop(wPts m d ∗ aPts m d ∗ oPts d (goal m d))
  go := fun q d _ i => match q with
    | 0 => iprop(wChunk m d (Fin.cast nSub_zero i) ∗ aRead m d (Fin.cast nSub_zero i) ∗ oChunk d (Fin.cast nSub_zero i) (m (oLoc d)))
  td := fun q d _ i => match q with
    | 0 => iprop(wChunk m d (Fin.cast nSub_zero i) ∗ aRead m d (Fin.cast nSub_zero i) ∗ oChunk d (Fin.cast nSub_zero i) (goal m d))
  x := fun _ _ => iprop(emp)

instance P_storable : (P (F := F) m).IsStorable where
  st q d _ := match q with
    | 0 => (inferInstance : BI.Storable (upEmb : UEmb _ 𝕄) iprop(wPts m d ∗ aPts m d ∗ oPts d (m (oLoc d))))
  dn q d _ := match q with
    | 0 => (inferInstance : BI.Storable (upEmb : UEmb _ 𝕄) iprop(wPts m d ∗ aPts m d ∗ oPts d (goal m d)))
  go q d _ i := match q with
    | 0 => (inferInstance : BI.Storable (upEmb : UEmb _ 𝕄)
        iprop(wChunk m d (Fin.cast nSub_zero i) ∗ aRead m d (Fin.cast nSub_zero i) ∗ oChunk d (Fin.cast nSub_zero i) (m (oLoc d))))
  td q d _ i := match q with
    | 0 => (inferInstance : BI.Storable (upEmb : UEmb _ 𝕄)
        iprop(wChunk m d (Fin.cast nSub_zero i) ∗ aRead m d (Fin.cast nSub_zero i) ∗ oChunk d (Fin.cast nSub_zero i) (goal m d)))

/-- The launch memory's words are in range on every device. -/
def PreOK : Prop := ∀ d : Dev nD, Cert.Proof.Spec.InRange (m (wLoc d))

end Cert.Proof.KB

end
-- ==== Proof.KBTile.lean ====
/-
  One task of the gather kernel, at a symbolic vector subcore.

  The task holds chunk `i` of the words and of the result outright and a read share of the table. It copies the table
  and its words into its own memory and waits for both copies; then, sixteen lanes at a time, it reads sixteen words,
  reads the table at the positions they name, and stores the sixteen entries — after trip `k` the first `16 k`
  lanes of its result buffer hold the gathered entries —; then it copies the 1024 entries to its chunk of the result.
  Every word is below 1000 (the launch memory's range), so every position is inside the table's 1001 entries.
-/
import proofs.«200234_g71571335020938_cont_9to1c4b_332_23_alg».proof.Proof.KBDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile

variable (d : Dev nD) (L : grid0.Coords)

abbrev cV (L : grid0.Coords) : Fin τ.nSC := (L 0).castLE hcore0
abbrev jV (L : grid0.Coords) : Fin τ.nSub := (L 1).castLE hsub0
theorem bound_one : grid0.bound 1 = 16 := rfl
abbrev jL (L : grid0.Coords) : Fin 16 := Fin.cast bound_one (L 1)

/-- The arrays and a task's three buffers (the table's copy, the words' copy, the gathered entries), as the kernel names them. -/
abbrev wV : Memref sig .scVector .hbm S16384 .i32 := Memref.whole main_arg0_scv
abbrev aV : Memref sig .scVector .hbm S1001 .f32 := Memref.whole main_arg1_scv
abbrev oV : Memref sig .scVector .hbm S16384 .f32 := Memref.whole main_v0_scv
abbrev sA : Memref sig .scVector .vmem S1001 .f32 := Memref.whole cc0_scratch0
abbrev sW : Memref sig .scVector .vmem S1024 .i32 := Memref.whole cc0_scratch1
abbrev sO : Memref sig .scVector .vmem S1024 .f32 := Memref.whole cc0_scratch2

/-- The task's chunk as the kernel slices it: 1024 positions from its computed offset. -/
abbrev chunkK (L : grid0.Coords) : Rect S16384 := Rect.unit (s := S16384) (k0_off1 L) S1024.size (k0_off1_inb L)
abbrev wChunkK (L : grid0.Coords) : Memref sig .scVector .hbm S1024 .i32 := (wV).slice (chunkK L) (fun _ => rfl)
abbrev oChunkK (L : grid0.Coords) : Memref sig .scVector .hbm S1024 .f32 := (oV).slice (chunkK L) (fun _ => rfl)

/-- The kernel's offset is chunk `L 1`'s: the one SparseCore of the grid has index 0. -/
theorem chunkK_eq : chunkK L = chunk (jL L) := by
  unfold chunkK chunk Rect.part Rect.block
  have h0 : (L 0).val = 0 := by have : (L 0).val < 1 := (L 0).isLt; omega
  congr 1 <;> funext a
  · rw [k0_off1_eq]
    match a with
    | 0 => simp [Shape.partIx, Shape.partSize, h0]; try omega
  · match a with
    | 0 => simp [Shape.partSize]

theorem set_wChunkK : (wChunkK L).view.set = chunkSet (jL L) := by
  show ((wV).view.slice (chunkK L)).set = (chunk (jL L)).set
  rw [View.set_slice, chunkK_eq]; exact Finset.map_refl
theorem set_oChunkK : (oChunkK L).view.set = chunkSet (jL L) := by
  show ((oV).view.slice (chunkK L)).set = (chunk (jL L)).set
  rw [View.set_slice, chunkK_eq]; exact Finset.map_refl

theorem pts_wChunkK (f : Buf (Elt F) (wLoc d)) :
    ((wChunkK L).view.loc (V d (cV L) (jV L)) ↦[(wChunkK L).view.set]{fullShare} f : sProp 𝕄) = wLoc d ↦[chunkSet (jL L)]{fullShare} f := by
  rw [set_wChunkK]
theorem pts_oChunkK (f : Buf (Elt F) (oLoc d)) :
    ((oChunkK L).view.loc (V d (cV L) (jV L)) ↦[(oChunkK L).view.set]{fullShare} f : sProp 𝕄) = oLoc d ↦[chunkSet (jL L)]{fullShare} f := by
  rw [set_oChunkK]
theorem pts_aV (q : PosShare TreeShare) (f : Buf (Elt F) (aLoc d)) :
    ((aV).view.loc (V d (cV L) (jV L)) ↦{q} f : sProp 𝕄) = aLoc d ↦{q} f := rfl
theorem pts_sA (f : Buf (Elt F) ((V d (cV L) (jV L)).loc cc0_scratch0)) :
    ((sA).view.loc (V d (cV L) (jV L)) ↦{fullShare} f : sProp 𝕄) = (V d (cV L) (jV L)).loc cc0_scratch0 ↦{fullShare} f := rfl
theorem pts_sW (f : Buf (Elt F) ((V d (cV L) (jV L)).loc cc0_scratch1)) :
    ((sW).view.loc (V d (cV L) (jV L)) ↦{fullShare} f : sProp 𝕄) = (V d (cV L) (jV L)).loc cc0_scratch1 ↦{fullShare} f := rfl
theorem pts_sO (f : Buf (Elt F) ((V d (cV L) (jV L)).loc cc0_scratch2)) :
    ((sO).view.loc (V d (cV L) (jV L)) ↦{fullShare} f : sProp 𝕄) = (V d (cV L) (jV L)).loc cc0_scratch2 ↦{fullShare} f := rfl

/-- The task's three semaphores: the table copy's, the words copy's, the write-out's. -/
abbrev cAcell (d : Dev nD) (c : Fin τ.nSC) (i : Fin τ.nSub) : GSem nD τ sig := (V d c i, .dma cc0_scratch3.sem)
abbrev cWcell (d : Dev nD) (c : Fin τ.nSC) (i : Fin τ.nSub) : GSem nD τ sig := (V d c i, .dma cc0_scratch4.sem)
abbrev cOcell (d : Dev nD) (c : Fin τ.nSC) (i : Fin τ.nSub) : GSem nD τ sig := (V d c i, .dma cc0_scoped0.sem)

theorem ownSems0_V :
    (ownSems0 (V d (cV L) (jV L)) : sProp 𝕄)
      = iprop(semVal (cAcell d (cV L) (jV L)) 0 ∗ semVal (cWcell d (cV L) (jV L)) 0 ∗ semVal (cOcell d (cV L) (jV L)) 0
          ∗ bigSep ((((ownCells (V d (cV L) (jV L))).erase (cAcell d (cV L) (jV L))).erase (cWcell d (cV L) (jV L))).erase (cOcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch3.sem : SemLoc sig).isScoped .scVector = true; decide⟩),
    SparseCore.bigSep_erase' (Finset.mem_erase.mpr ⟨by simp [cAcell, cWcell]; decide, (mem_ownCells (g := cWcell d (cV L) (jV L))).mpr ⟨rfl, by
      show (SemLoc.dma cc0_scratch4.sem : SemLoc sig).isScoped .scVector = true; decide⟩⟩),
    SparseCore.bigSep_erase' (Finset.mem_erase.mpr ⟨by simp [cWcell, cOcell]; decide, Finset.mem_erase.mpr ⟨by simp [cAcell, cOcell]; decide,
      (mem_ownCells (g := cOcell d (cV L) (jV L))).mpr ⟨rfl, by show (SemLoc.dma cc0_scoped0.sem : SemLoc sig).isScoped .scVector = true; decide⟩⟩⟩)]

/-- The three buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- The task's words: word `y` of its chunk of the launch contents. -/
def wordsOf : S1024.Idx → BitVec 32 := (wChunkK L).view.read (Elt F) (m (wLoc d))

/-- The loop's invariant before trip `k`: the table's copy holds the table, the words' copy the task's words, and the
    first `16 k` lanes of the result buffer the table's entries at the positions those words name. -/
def inv (k : Nat) (_ : PUnit) : sProp 𝕄 :=
  iprop((∃ ta : Buf (Elt F) ((V d (cV L) (jV L)).loc cc0_scratch0), ⌜∀ x, ta x = m (aLoc d) x⌝ ∗ (sA).view.loc (V d (cV L) (jV L)) ↦{fullShare} ta)
    ∗ (∃ tw : Buf (Elt F) ((V d (cV L) (jV L)).loc cc0_scratch1), ⌜∀ y, tw y = wordsOf m d L y⌝ ∗ (sW).view.loc (V d (cV L) (jV L)) ↦{fullShare} tw)
    ∗ (∃ tg : Buf (Elt F) ((V d (cV L) (jV L)).loc cc0_scratch2),
        ⌜∀ y : S1024.Idx, (y 0).val < 16 * k → tg y = m (aLoc d) (Cert.Proof.Spec.pos (wordsOf m d L y))⌝ ∗ (sO).view.loc (V d (cV L) (jV L)) ↦{fullShare} tg))

/-- A word of the task is a word of the launch contents, so below 1000. -/
theorem wordsOf_eq (y : S1024.Idx) : wordsOf m d L y = m (wLoc d) ((wChunkK L).view.emb y) :=
  (View.read_apply _ _).trans (cast_eq _ _)
theorem words_lt (hpre : PreOK m) (y : S1024.Idx) : (wordsOf m d L y).toNat < 1000 := by
  rw [wordsOf_eq]; exact hpre d _

/-- The sixteen words a trip reads pass the kernel's check: each names a position inside the table. -/
theorem chk_ok (hpre : PreOK m) (tw : Buf (Elt F) ((V d (cV L) (jV L)).loc cc0_scratch1)) (htw : ∀ y, tw y = wordsOf m d L y)
    (k : Fin k0_t1_loop.trips) :
    k0_chk1 (View.readAt (Elt F) (sW).view (Rect.unit (s := S1024) (k0_off2 k) S16.size (k0_off2_inb k)).toLoadRect tw) := by
  intro a x
  obtain rfl : a = 0 := Subsingleton.elim _ _
  show (View.readAt (Elt F) (sW).view (Rect.unit (s := S1024) (k0_off2 k) S16.size (k0_off2_inb k)).toLoadRect tw x).toNat < 1001
  simp only [View.readAt_apply, Memref.view_whole, View.read_whole]
  rw [htw]; exact Nat.lt_trans (words_lt m d L hpre _) (by decide)

theorem pts_sA_access (f : Buf (Elt F) ((V d (cV L) (jV L)).loc cc0_scratch0)) :
    (((sA).access (.whole S1001)).loc (V d (cV L) (jV L)) ↦{fullShare} f : sProp 𝕄) = (sA).view.loc (V d (cV L) (jV L)) ↦{fullShare} f := rfl

/-- The entry the result must hold at lane `y` of the task's buffer: the table at the position word `y` names. -/
abbrev target (y : S1024.Idx) : Elt F .f32 := m (aLoc d) (Cert.Proof.Spec.pos (wordsOf m d L y))

/-- The sixteen lanes trip `k` reads and the sixteen it stores are the same lanes `16 k … 16 k + 15`. -/
theorem lanes_eq (k : Fin k0_t1_loop.trips) (x : S16.Idx) :
    (Rect.unit (s := S1024) (k0_off2 k) S16.size (k0_off2_inb k)).toLoadRect.idx x
      = (Rect.unit (s := S1024) (k0_off3 k) S16.size (k0_off3_inb k)).emb x := by
  funext a; apply Fin.ext
  obtain rfl : a = 0 := Subsingleton.elim _ _
  have h2 : k0_off2 k 0 = 16 * k.val := congrFun (k0_off2_eq k) 0
  have h3 : k0_off3 k 0 = 16 * k.val := congrFun (k0_off3_eq k) 0
  show k0_off2 k 0 + 1 * (x 0).val = k0_off3 k 0 + 1 * (x 0).val
  omega

/-- A lane of the indexed load: the table's copy holds the table and the words' copy the task's words, so lane `x` of
    trip `k` reads the table at the position word `16 k + x` names. -/
theorem lane_ok (hpre : PreOK m) (k : Fin k0_t1_loop.trips)
    (ta : Buf (Elt F) ((V d (cV L) (jV L)).loc cc0_scratch0)) (hta : ∀ x, ta x = m (aLoc d) x)
    (tw : Buf (Elt F) ((V d (cV L) (jV L)).loc cc0_scratch1)) (htw : ∀ y, tw y = wordsOf m d L y)
    (h : ∀ a x, ((![View.readAt (Elt F) (sW).view (Rect.unit (s := S1024) (k0_off2 k) S16.size (k0_off2_inb k)).toLoadRect tw] : Fin 1 → IVec S16 32) a x).toNat < S1001.size a)
    (x : S16.Idx) :
    loadIdx (View.read (Elt F) ((sA).access (Rect.whole S1001)) ta)
        ![View.readAt (Elt F) (sW).view (Rect.unit (s := S1024) (k0_off2 k) S16.size (k0_off2_inb k)).toLoadRect tw] h x
      = target m d L ((Rect.unit (s := S1024) (k0_off3 k) S16.size (k0_off3_inb k)).emb x) := by
  have e : View.readAt (Elt F) (sW).view (Rect.unit (s := S1024) (k0_off2 k) S16.size (k0_off2_inb k)).toLoadRect tw x
      = wordsOf m d L ((Rect.unit (s := S1024) (k0_off3 k) S16.size (k0_off3_inb k)).emb x) := by
    simp only [View.readAt_apply, Memref.view_whole, View.read_whole]
    rw [htw, lanes_eq]
  show View.read (Elt F) ((sA).access (Rect.whole S1001)) ta (idxAt _ h x) = _
  rw [show View.read (Elt F) ((sA).access (Rect.whole S1001)) ta = ta from Memref.read_access_whole _ _ _, hta]
  unfold target
  congr 1
  funext a; apply Fin.ext
  obtain rfl : a = 0 := Subsingleton.elim _ _
  show (View.readAt (Elt F) (sW).view (Rect.unit (s := S1024) (k0_off2 k) S16.size (k0_off2_inb k)).toLoadRect tw x).toNat
      = (wordsOf m d L ((Rect.unit (s := S1024) (k0_off3 k) S16.size (k0_off3_inb k)).emb x)).toNat % 1001
  rw [e, Nat.mod_eq_of_lt (Nat.lt_trans (words_lt m d L hpre _) (by decide))]

/-- A trip's store extends the gathered lanes by sixteen: the lanes below `16 k` are kept, the sixteen written are
    the gathered entries. -/
theorem store_step (k : Fin k0_t1_loop.trips) (tg : Buf (Elt F) ((V d (cV L) (jV L)).loc cc0_scratch2)) (v : S16.Idx → Elt F .f32)
    (htg : ∀ y : S1024.Idx, (y 0).val < 16 * k.val → tg y = target m d L y)
    (hv : ∀ x : S16.Idx, v x = target m d L ((Rect.unit (s := S1024) (k0_off3 k) S16.size (k0_off3_inb k)).emb x)) :
    ∀ y : S1024.Idx, (y 0).val < 16 * (k.val + 1) →
      (sO).view.writes (Elt F) tg [⟨Rect.unit (s := S1024) (k0_off3 k) S16.size (k0_off3_inb k), v⟩] y = target m d L y := by
  intro y hy
  rw [View.writes_singleton]
  have hoff : k0_off3 k = ![16 * k.val] := k0_off3_eq k
  by_cases hlt : (y 0).val < 16 * k.val
  · rw [View.write_of_not_mem, htg y hlt]
    intro hmem
    obtain ⟨x, -, hx⟩ := Finset.mem_map.mp hmem
    have h0 := congrArg (fun i : S1024.Idx => (i 0).val) hx
    have h1 : (((sO).view.slice (Rect.unit (s := S1024) (k0_off3 k) S16.size (k0_off3_inb k))).emb x 0).val = k0_off3 k 0 + 1 * (x 0).val := rfl
    simp only [h1, hoff] at h0
    simp at h0
    omega
  · have hx0 : (y 0).val - 16 * k.val < 16 := by omega
    let x : S16.Idx := Idealize.ShloMosaic.ValueIdx.ix1 ⟨(y 0).val - 16 * k.val, hx0⟩
    have hy' : y = ((sO).view.slice (Rect.unit (s := S1024) (k0_off3 k) S16.size (k0_off3_inb k))).emb x := by
      funext a; apply Fin.ext
      obtain rfl : a = 0 := Subsingleton.elim _ _
      show (y 0).val = k0_off3 k 0 + 1 * (x 0).val
      rw [hoff]
      show (y 0).val = 16 * k.val + 1 * ((y 0).val - 16 * k.val)
      omega
    rw [hy', View.write_emb_of_mem _ _ (Finset.mem_univ x), cast_eq, hv]
    rfl

/-- What the two copies land: the table, and the task's words. -/
theorem land_tab (fa : Buf (Elt F) ((V d (cV L) (jV L)).loc cc0_scratch0)) (pay : S1001.Idx → Elt F .f32)
    (hpay : pay = (aV).view.read (Elt F) (m (aLoc d))) :
    ∀ x, View.write (Elt F) (sA).view fa pay Finset.univ x = m (aLoc d) x := by
  subst hpay; intro x
  exact congrFun (View.write_whole_univ _ _ _) x
theorem land_words (fw : Buf (Elt F) ((V d (cV L) (jV L)).loc cc0_scratch1)) (pay : S1024.Idx → Elt F .i32)
    (hpay : pay = (wChunkK L).view.read (Elt F) (m (wLoc d))) :
    ∀ y, View.write (Elt F) (sW).view fw pay Finset.univ y = wordsOf m d L y := by
  subst hpay; intro y
  show _ = (wChunkK L).view.read (Elt F) (m (wLoc d)) y
  exact congrFun (View.write_whole_univ _ _ _) y

/-- The loop runs 64 trips: 64 × 16 lanes are the buffer's 1024. -/
theorem trips_eq : Scf.trips k0_t1_loop.lb k0_t1_loop.ub k0_t1_loop.st = 64 := by decide

/-- What the write-out leaves in the task's chunk of the result: on the chunk's elements, the gathered array. -/
theorem out_goal (tg : Buf (Elt F) ((V d (cV L) (jV L)).loc cc0_scratch2)) (htg : ∀ y : S1024.Idx, tg y = target m d L y)
    (pay : S1024.Idx → Elt F .f32) (hpay : pay = (sO).view.read (Elt F) tg) :
    ((oChunkK L).view.loc (V d (cV L) (jV L)) ↦[(oChunkK L).view.set]{fullShare}
        (oChunkK L).view.writes (Elt F) (m (oLoc d)) [⟨Rect.whole S1024, pay⟩] : sProp 𝕄)
      = oLoc d ↦[chunkSet (jL L)]{fullShare} goal m d := by
  subst hpay
  rw [← pts_oChunkK (F := F) d L (goal m d)]
  refine pointsTo_congr fun i hi => ?_
  obtain ⟨y, -, rfl⟩ := Finset.mem_map.mp hi
  rw [View.writes_singleton]
  have hy : (oChunkK L).view.emb y = ((oChunkK L).view.slice (Rect.whole S1024)).emb y :=
    congrArg (oChunkK L).view.emb (Rect.emb_whole_apply S1024 y).symm
  rw [hy, View.write_emb_of_mem _ _ (Finset.mem_univ y), cast_eq, ← hy]
  show tg y = m (aLoc d) (Cert.Proof.Spec.pos (m (wLoc d) ((oChunkK L).view.emb y)))
  rw [htg y]
  show m (aLoc d) (Cert.Proof.Spec.pos (wordsOf m d L y)) = _
  rw [wordsOf_eq]
  rfl

variable [FloatOps F]

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (wChunk m d (jL L) ∗ aRead m d (jL L) ∗ oChunk d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_kernel L wV (Memref.isWhole_whole _) aV (Memref.isWhole_whole _) oV (Memref.isWhole_whole _)
            sA (Memref.isWhole_whole _) sW (Memref.isWhole_whole _) sO (Memref.isWhole_whole _) cc0_scratch3 cc0_scratch4 cc0_scoped0)
          fun _ => iprop((wChunk m d (jL L) ∗ aRead m d (jL L) ∗ oChunk d (jL L) (goal m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_kernel_eq_skeleton]; unfold cc0__gather_kernel_skel
  rw [(K (F := F)).scopedBufs_V hF d (cV L) (jV L), SparseCore.Cfg.scopedSems0_V (Val := Elt F) d (cV L) (jV L), ownSems0_V, ownBufs_V]
  iintro ⟨#Hlv, -, ⟨Hw, Ha, Ho⟩, ⟨⟨%fa, Hsa⟩, ⟨%fw, Hsw⟩, ⟨%fo, Hso⟩, Hbufs⟩, ⟨HsemA, HsemW, HsemO, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hw' := (Entails.of_eq (pts_wChunkK (F := F) d L _).symm) $$ Hw
  ihave Ho' := (Entails.of_eq (pts_oChunkK (F := F) d L _).symm) $$ Ho
  ihave Ha' := (Entails.of_eq (pts_aV (F := F) d L _ _).symm) $$ Ha
  ihave Hsa' := (Entails.of_eq (pts_sA (F := F) d L _).symm) $$ Hsa
  ihave Hsw' := (Entails.of_eq (pts_sW (F := F) d L _).symm) $$ Hsw
  ihave Hso' := (Entails.of_eq (pts_sO (F := F) d L _).symm) $$ Hso
  sl_exec
  sl_for (inv m d L) $$ [Hsa' Hsw' Hso']
  case region =>
    intro k _
    unfold inv
    iintro ⟨⟨%ta, %hta, Hsa⟩, ⟨%tw, %htw, Hsw⟩, ⟨%tg, %htg, Hso⟩⟩
    have hchk := chk_ok m d L hpre tw htw k
    sl_exec
    ihave Hsa' := (Entails.of_eq (pts_sA_access (F := F) d L _).symm) $$ Hsa
    iapply (SparseCore.wp_vectorLoadIdx 𝒱₀ (V d (cV L) (jV L)) none Set.univ (base := (sA)) (S := Finset.univ) (q := fullShare) (Finset.subset_univ _)) $$ Hsa'; iintro Hsa'
    ihave Hsa := (Entails.of_eq (pts_sA_access (F := F) d L _)) $$ Hsa'
    sl_exec
    sl_step
    isplitl [Hsa]
    · iexists ta; isplitr; · ipureintro; exact hta
      iexact Hsa
    isplitl [Hsw]
    · iexists tw; isplitr; · ipureintro; exact htw
      iexact Hsw
    iexists _; isplitr
    swap; · iexact Hso
    ipureintro
    exact store_step m d L k tg _ htg (lane_ok m d L hpre k ta hta tw htw _)
  · unfold inv
    isplitl [Hsa']
    · iexists _; isplitr; · ipureintro; exact land_tab m d L fa _ rfl
      iexact Hsa'
    isplitl [Hsw']
    · iexists _; isplitr; · ipureintro; exact land_words m d L fw _ rfl
      iexact Hsw'
    iexists fo; isplitr
    · ipureintro; intro y hy; omega
    iexact Hso'
  iintro %_ HI
  unfold inv
  icases HI with ⟨⟨%ta, %hta, Hsa⟩, ⟨%tw, %htw, Hsw⟩, ⟨%tg, %htg, Hso⟩⟩
  sl_exec
  sl_step
  have hall : ∀ y : S1024.Idx, tg y = target m d L y := fun y => htg y (by
    rw [trips_eq]; have : (y 0).val < 1024 := (y 0).isLt; omega)
  isplitl [Hw' Ha' Ho']
  · isplitl [Hw']; · iapply (Entails.of_eq (pts_wChunkK (F := F) d L _)); iexact Hw'
    isplitl [Ha']; · iexact Ha'
    iapply (Entails.of_eq (out_goal m d L tg hall _ rfl)); iexact Ho'
  isplitl [Hsa Hsw Hso Hbufs]
  · isplitl [Hsa]; · iexists _; iexact Hsa
    isplitl [Hsw]; · iexists _; iexact Hsw
    isplitl [Hso]; · iexists _; iexact Hso
    iexact Hbufs
  isplitl [HsemA HsemW HsemO Hsems]
  · isplitl [HsemA]; · iexact HsemA
    isplitl [HsemW]; · iexact HsemW
    isplitl [HsemO]; · iexact HsemO
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-! ## The launch theorem's obligation for the task -/

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_kernel (coordsV c s)
          wV (Memref.isWhole_whole _) aV (Memref.isWhole_whole _) oV (Memref.isWhole_whole _)
          sA (Memref.isWhole_whole _) sW (Memref.isWhole_whole _) sO (Memref.isWhole_whole _) cc0_scratch3 cc0_scratch4 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the one call meets the launch theorem's obligation: `tile_body` at the task's coordinates. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

end Cert.Proof.KB

end
-- ==== Proof.KBLaunch.lean ====
/-
  The launch of the gather kernel: from one vector subcore's task to the run of the whole program.

  Given that one task — from chunk i of the timestep words, a read share of the table and chunk i of the result, to the
  same with its chunk of the result holding the gathered entries — runs correctly, the whole program runs and ends with
  the result equal to the gathered array and the three arguments unchanged. What is shown here:

  * The split. The sixteen chunks of a 16384-array are pairwise disjoint and cover it, so an array held whole is its
    sixteen chunks held separately, and conversely when all sixteen hold the SAME contents. The table held whole is a
    remainder and sixteen read shares; the remainder stays with the sequencer while the tasks run, and with the sixteen
    shares back it is the table held whole again. So the call's operands split into the sixteen tasks' operands, and
    the sixteen tasks' results — each its chunk of the result at the gathered array — join to the call's results.
  * The launch element: the handshakes' rounds; the transfers' counters are dropped, nothing else is needed.
  * @main on the TensorCore is the one call: it hands the words, the table and the result over and gets them back, the
    result at the gathered array; the third argument, which the kernel never touches, stays on the TensorCore's side.
  * The final memory agrees with the four arrays held at the end, which is the claim's post.
-/
import proofs.«200234_g71571335020938_cont_9to1c4b_332_23_alg».proof.Proof.KBDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The split of a call's operands among the sixteen tasks -/

/-- Two different chunks share no position. -/
theorem chunks_disjoint : ∀ i ∈ (Finset.univ : Finset (Fin 16)), ∀ j ∈ (Finset.univ : Finset (Fin 16)), i ≠ j → Disjoint (chunkSet i) (chunkSet j) :=
  fun i _ j _ h => Rect.part_disjoint hdiv h

/-- The sixteen chunks are every position. -/
theorem chunks_cover : (Finset.univ : Finset (Fin 16)).biUnion chunkSet = Finset.univ := Rect.biUnion_part hdiv

/-- The words held whole are their sixteen chunks held separately. -/
theorem wPts_chunks (d : Dev nD) (f : Buf (Elt F) (wLoc d)) :
    (wLoc d ↦{fullShare} f : sProp 𝕄) = bigSep Finset.univ fun i : Fin 16 => wLoc d ↦[chunkSet i]{fullShare} f := by
  rw [← pointsTo_biUnion Finset.univ (ℓ := wLoc d) chunkSet chunks_disjoint, chunks_cover]; try rfl

/-- The result held whole, at one contents, is its sixteen chunks held separately at those contents. -/
theorem oPts_chunks (d : Dev nD) (f : Buf (Elt F) (oLoc d)) :
    (oLoc d ↦{fullShare} f : sProp 𝕄) = bigSep Finset.univ fun i : Fin 16 => oLoc d ↦[chunkSet i]{fullShare} f := by
  rw [← pointsTo_biUnion Finset.univ (ℓ := oLoc d) chunkSet chunks_disjoint, chunks_cover]; try rfl

/-- A family over the kernel's sixteen tasks is a family over sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The call's operands split into the tasks' — the table's remainder kept — and the tasks' results join to the call's:
    the chunks of the words rejoin, the read shares with the remainder are the table whole, and the sixteen chunks of
    the result, all at the gathered array, are the result whole at the gathered array. -/
theorem vecSplit : (K (F := F)).VecSplit' (P m) 0 := by
  intro d c
  show iprop(wPts m d ∗ aPts m d ∗ oPts d (m (oLoc d))) ⊢ |={Set.univ}=> iprop(
      (bigSep Finset.univ fun i : Fin ((K (F := F)).nSub 0) =>
        iprop(wChunk m d (Fin.cast nSub_zero i) ∗ aRead m d (Fin.cast nSub_zero i) ∗ oChunk d (Fin.cast nSub_zero i) (m (oLoc d))))
      ∗ ((bigSep Finset.univ fun i : Fin ((K (F := F)).nSub 0) =>
          iprop(wChunk m d (Fin.cast nSub_zero i) ∗ aRead m d (Fin.cast nSub_zero i) ∗ oChunk d (Fin.cast nSub_zero i) (goal m d)))
          -∗ iprop(wPts m d ∗ aPts m d ∗ oPts d (goal m d))))
  rw [bigSep_tasks (F := F) (fun i => iprop(wChunk m d i ∗ aRead m d i ∗ oChunk d i (m (oLoc d)))),
    bigSep_tasks (F := F) (fun i => iprop(wChunk m d i ∗ aRead m d i ∗ oChunk d i (goal m d))), bigSep_sep', bigSep_sep', bigSep_sep', bigSep_sep']
  unfold wPts oPts wChunk oChunk
  rw [wPts_chunks, oPts_chunks, oPts_chunks]
  iintro ⟨Hw, Ha, Ho⟩
  ihave Ha' := (Transfers.pointsTo_toks_split fullShare 16) $$ Ha
  icases Ha' with ⟨Hrem, Htoks⟩
  imodintro
  isplitl [Hw Htoks Ho]
  · isplitl [Hw]; · iexact Hw
    isplitl [Htoks]; · iexact Htoks
    iexact Ho
  iintro ⟨Hw, Htoks, Ho⟩
  isplitl [Hw]; · iexact Hw
  isplitl [Hrem Htoks]
  · iapply (Transfers.pointsTo_toks_join fullShare 16)
    isplitl [Hrem] <;> iassumption
  iexact Ho

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The TensorCore's arrays: the three arguments and the result. -/
theorem unscopedBufs_eq (d : Dev nD) (W : (b : Ref sig .tc) → Buf (Elt F) ((d.tc : Thread nD τ).loc b)) :
    (unscopedBufs d W : sProp 𝕄) = iprop((wLoc d ↦{fullShare} W main_arg0) ∗ (aLoc d ↦{fullShare} W main_arg1) ∗ (bLoc d ↦{fullShare} W main_arg2)
      ∗ oLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

theorem st0_eq (d : Dev nD) : (bigSep Finset.univ fun c : Fin ((K (F := F)).nCore 0) => (P m).st 0 d c) = iprop(wPts m d ∗ aPts m d ∗ oPts d (m (oLoc d))) :=
  bigSep_univ_of_subsingleton (0 : Fin 1)
theorem dn0_eq (d : Dev nD) : (bigSep Finset.univ fun c : Fin ((K (F := F)).nCore 0) => (P m).dn 0 d c) = iprop(wPts m d ∗ aPts m d ∗ oPts d (goal m d)) :=
  bigSep_univ_of_subsingleton (0 : Fin 1)

/-- The third argument, which the kernel never touches. -/
abbrev bPts (d : Dev nD) : sProp 𝕄 := bLoc d ↦{fullShare} m (bLoc d)

/-- What the TensorCore ends with: the three arguments at their launch contents, the result at the gathered array. -/
abbrev FIN (d : Dev nD) : sProp 𝕄 := iprop(wPts m d ∗ aPts m d ∗ bPts m d ∗ oPts d (goal m d))

variable [FloatOps F]

/-- @main on device `d`'s TensorCore: the one call, from the words, the table and the result; the third argument kept aside. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hbd, ⟨Hw, Ha, Hb, Ho⟩, -, -⟩, -⟩
  iapply ((K (F := F)).wp_run (D (F := F)) 𝒱 (EH := EH) (P := P m) κ d 0) $$ [Hst Hw Ha Hb Ho]
  isplitr; · iexact Hctx
  isplitl [Hst]; · iexact Hst
  isplitl [Hw Ha Ho]
  · rw [st0_eq]
    isplitl [Hw]; · iexact Hw
    isplitl [Ha]; · iexact Ha
    iexact Ho
  iintro ⟨Hst, Hdn⟩
  ihave Hdn' := (Entails.of_eq (dn0_eq m d)) $$ Hdn
  icases Hdn' with ⟨Hw, Ha, Ho⟩
  imodintro
  isplitl [Hst]; · iexact Hst
  isplitl [Hw]; · iexact Hw
  isplitl [Ha]; · iexact Ha
  isplitl [Hb]; · iexact Hb
  iexact Ho

/-- What the final memory must read on device `d`. -/
def fq (d : Dev nD) (s' : Phys nD τ sig (Elt F)) : Prop :=
  s'.mem.mem (oLoc d) = goal m d ∧ s'.mem.mem (wLoc d) = m (wLoc d) ∧ s'.mem.mem (aLoc d) = m (aLoc d) ∧ s'.mem.mem (bLoc d) = m (bLoc d)

omit [FloatOps F] in
/-- The final memory agrees with each of the four arrays held at the end. -/
theorem hfin (d : Dev nD) (s' : Phys nD τ sig (Elt F)) : iprop(FIN m d ∗ SI s') ⊢ (⌜fq m d s'⌝ : sProp 𝕄) := by
  iintro ⟨⟨Hw, Ha, Hb, Ho⟩, HSI⟩
  ihave H := (persistent_entails_right (SI_pointsTo_agree (st := s') (ℓ := wLoc d) (I := Finset.univ) (q := fullShare) (f := m (wLoc d)))) $$ [HSI Hw]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h3, HSI, -⟩
  ihave H := (SI_pointsTo_agree (st := s') (ℓ := oLoc d) (I := Finset.univ) (q := fullShare) (f := goal m d)) $$ [HSI Ho]
  · isplitl [HSI] <;> iassumption
  icases H with %h4
  ipureintro
  exact ⟨funext fun i => h4 i (Finset.mem_univ i), funext fun i => h1 i (Finset.mem_univ i), funext fun i => h2 i (Finset.mem_univ i),
    funext fun i => h3 i (Finset.mem_univ i)⟩

/-! ## The program's run -/

omit [FloatOps F] in
/-- On every device the result ends as the gathered array of the launch contents and the three arguments unchanged. -/
def QC (m : (ℓ : Loc nD τ sig) → Buf (Elt F) ℓ) : PUnit × MemSt nD τ sig (Elt F) → Prop := fun r => ∀ c : Dev nD,
  r.2.mem (oLoc c) = goal m c ∧ r.2.mem (wLoc c) = m (wLoc c) ∧ r.2.mem (aLoc c) = m (aLoc c) ∧ r.2.mem (bLoc c) = m (bLoc c)

/-- The whole program's run, given one task's. -/
theorem run_main [∀ e, Nonempty (Elt F e)] (m : (ℓ : Loc nD τ sig) → Buf (Elt F) ℓ) (ρ : Dev nD → PrngReg)
    (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.PreRange.lean ====
/-
  The precondition decoded into the one fact the rest of the proof uses: every timestep word is below 1000.

  The precondition is a one-bit scalar, the conjunction of three "for all" tests; the claim states it is 1. Read at the
  scalar's one index, the outer conjunction being 1 makes its second operand 1; that operand is the reduction by "and",
  from 1, of a one-bit array with one entry per timestep word, so every entry of that array is 1; entry j is the
  conjunction of the two signed comparisons 0 ≤ t j and t j ≤ 999. A 32-bit word whose signed value lies in [0, 999]
  has its top bit clear, so its natural value is its signed value, which is below 1000. The two tests on the float
  tables are never opened: the argument is the same at every float instance.
-/
import proofs.«200234_g71571335020938_cont_9to1c4b_332_23_alg».proof.Defs
import proofs.«200234_g71571335020938_cont_9to1c4b_332_23_alg».proof.Proof.Spec
import Idealize.ShloMosaic.Lib.ReduceAll
import Idealize.ShloMosaic.Lib.ValueIdx

noncomputable section

namespace Cert.Proof.PreRange

open Idealize.ShloMosaic Idealize.ShloMosaic.ValueIdx Idealize.SL.Sem

/-- The scalar shape has one index. -/
instance : Subsingleton Cert.Pre_input_domain.S_.Idx := ⟨fun a b => funext fun d => d.elim0⟩

/-- A 32-bit word whose signed value is at least that of the word 0 and at most that of the word 999 has natural
    value below 1000: its signed value is nonnegative, so it is its natural value. -/
theorem toNat_lt_of_signed (w : BitVec 32) (h0 : (0#32 : BitVec 32).toInt ≤ w.toInt)
    (h1 : w.toInt ≤ (999#32 : BitVec 32).toInt) : w.toNat < 1000 := by
  have e0 : (0#32 : BitVec 32).toInt = 0 := by decide
  have e1 : (999#32 : BitVec 32).toInt = 999 := by decide
  rw [e0] at h0
  rw [e1] at h1
  have hc := BitVec.toInt_eq_toNat_cond w
  have hlt := w.isLt
  split at hc <;> omega

open Idealize.ShloMosaic in
/-- The precondition being 1 makes every timestep word below 1000; the same at every float instance. -/
theorem inRange_of_fn {F : FTy → Type} [FloatOps F] [Cert.Pre_input_domain.Facts]
    (t : IVec Cert.Pre_input_domain.S16384 32) (a : FVec F Cert.Pre_input_domain.S1001 .f32) (b : FVec F Cert.Pre_input_domain.S1000 .f32)
    (h : Cert.Pre_input_domain.fn (F := F) t a b = fun _ => 1#1) : Cert.Proof.Spec.InRange t := by
  intro j
  have e := congrFun h ix0
  dsimp only [Cert.Pre_input_domain.fn] at e
  -- the outer conjunction is 1 at the scalar's index: so is its second operand, the test on the timestep words
  obtain ⟨-, e14⟩ := IntOp.andi_eq_one.1 e
  -- that operand is the "and" of the array over all positions, from 1: entry j of the array is 1
  have e13 := Host.reduce_andi_all _ _ _ _ _ e14 j
  -- entry j is the conjunction of the two signed comparisons of t j, with the words 0 and 999
  obtain ⟨e10, e12⟩ := IntOp.andi_eq_one.1 e13
  exact toNat_lt_of_signed (t j) (IntOp.cmpi_sge.1 e10) (IntOp.cmpi_sle.1 e12)

/-- The kernel's precondition: on every device the timestep words are below 1000. -/
theorem kernel [Cert.Kernel.Facts] [Cert.Pre_input_domain.Facts] (m : (ℓ : Loc Cert.Kernel.nD Cert.Kernel.τ Cert.Kernel.sig) → Buf (Elt Bits) ℓ)
    (h : Cert.Pre_Kernel m) : ∀ c : Dev Cert.Kernel.nD, Cert.Proof.Spec.InRange (m ((c.tc : Thread Cert.Kernel.nD Cert.Kernel.τ).loc Cert.Kernel.main_arg0)) :=
  fun c => inRange_of_fn (F := Bits) _ _ _ (h c)

/-- The idealized kernel's precondition: on every device the timestep words are below 1000. -/
theorem kernelIdeal [Cert.KernelIdeal.Facts] [Cert.Pre_input_domain.Facts] (m : (ℓ : Loc Cert.KernelIdeal.nD Cert.KernelIdeal.τ Cert.KernelIdeal.sig) → Buf (Elt Ideal) ℓ)
    (h : Cert.Pre_KernelIdeal m) : ∀ c : Dev Cert.KernelIdeal.nD, Cert.Proof.Spec.InRange (m ((c.tc : Thread Cert.KernelIdeal.nD Cert.KernelIdeal.τ).loc Cert.KernelIdeal.main_arg0)) :=
  fun c => inRange_of_fn (F := Ideal) _ _ _ (h c)

/-- The idealized reference's precondition: on every device the timestep words are below 1000. -/
theorem referenceIdeal [Cert.ReferenceIdeal.Facts] [Cert.Pre_input_domain.Facts] (m : (ℓ : Loc Cert.ReferenceIdeal.nD Cert.ReferenceIdeal.τ Cert.ReferenceIdeal.sig) → Buf (Elt Ideal) ℓ)
    (h : Cert.Pre_ReferenceIdeal m) : ∀ c : Dev Cert.ReferenceIdeal.nD, Cert.Proof.Spec.InRange (m ((c.tc : Thread Cert.ReferenceIdeal.nD Cert.ReferenceIdeal.τ).loc Cert.ReferenceIdeal.main_arg0)) :=
  fun c => inRange_of_fn (F := Ideal) _ _ _ (h c)

end Cert.Proof.PreRange

end
-- ==== Proof.KernelClaims.lean ====
/-
  The kernel's side of the claim: both printed kernels run, fault nowhere, leave their arguments unchanged, and the
  idealized one ends with its result equal to the gathered array `Spec.G` of its arguments.

  Each is the run of the whole device — @main's one call, the sequencer's dispatch, the sixteen tasks — obtained from one
  task's correctness through the launch theorem, under the range of the timestep words that the precondition states.
-/
import proofs.«200234_g71571335020938_cont_9to1c4b_332_23_alg».proof.Proof.KITile
import proofs.«200234_g71571335020938_cont_9to1c4b_332_23_alg».proof.Proof.KILaunch
import proofs.«200234_g71571335020938_cont_9to1c4b_332_23_alg».proof.Proof.KBTile
import proofs.«200234_g71571335020938_cont_9to1c4b_332_23_alg».proof.Proof.KBLaunch
import proofs.«200234_g71571335020938_cont_9to1c4b_332_23_alg».proof.Proof.PreRange
import proofs.«200234_g71571335020938_cont_9to1c4b_332_23_alg».proof.Proof.Gen.Pre_input_domain

noncomputable section

namespace Cert.Proof.KernelClaims

open Idealize.ShloMosaic Idealize.SL.Sem

/-- The word-level kernel: every weakly fair execution terminates, nothing faulting, the three arguments unchanged. -/
theorem frame_k : Cert.frame_Kernel (hKernel := Cert.Kernel.Gen.facts) (hPre_input_domain := Cert.Pre_input_domain.Gen.facts) :=
  fun m ρ hpre =>
    (θ_run Cert.Kernel.defs _ _).mono (fun _ h c => ⟨(h c).2.1, (h c).2.2.1, (h c).2.2.2⟩)
      (Cert.Proof.KB.run_main (F := Bits) m ρ (Cert.Proof.KB.tileObl m Cert.Proof.KB.facts (Cert.Proof.PreRange.kernel m hpre)))

/-- The idealized kernel's run: the result ends as the gathered array of the arguments, the arguments unchanged. -/
theorem run_ki (m : (ℓ : Loc Cert.KernelIdeal.nD Cert.KernelIdeal.τ Cert.KernelIdeal.sig) → Buf (Elt Ideal) ℓ) (ρ : Dev Cert.KernelIdeal.nD → PrngReg)
    (hpre : Cert.Pre_KernelIdeal (hPre_input_domain := Cert.Pre_input_domain.Gen.facts) m) :
    θ_run (Cert.KernelIdeal.defs (F := Ideal)) (Cert.KernelIdeal.threads (F := Ideal)) ⟨m, fun _ => 0, ρ⟩ (Cert.Proof.KI.QC m) :=
  Cert.Proof.KI.run_main (F := Ideal) m ρ (Cert.Proof.KI.tileObl m Cert.Proof.KI.facts (Cert.Proof.PreRange.kernelIdeal m hpre))

/-- The idealized kernel: the same frame. -/
theorem frame_ki : Cert.frame_KernelIdeal (hKernelIdeal := Cert.KernelIdeal.Gen.facts) (hPre_input_domain := Cert.Pre_input_domain.Gen.facts) :=
  fun m ρ hpre =>
    (θ_run Cert.KernelIdeal.defs _ _).mono (fun _ h c => ⟨(h c).2.1, (h c).2.2.1, (h c).2.2.2⟩) (run_ki m ρ hpre)

end Cert.Proof.KernelClaims

end
-- ==== Proof.RefRun.lean ====
/-
  The reference program's run.

  @main is a straight line of thirty host operations once its three calls (the clip, the take, and the take's select)
  are unfolded at their call sites: the two bounds as constants; the clip's six (each bound converted and broadcast,
  the maximum with 0, the minimum with 999); the take's twenty-two (the wrap of a negative index by the table's
  length, the indices as a column, the two bounds checks and their conjunction reduced along the column's axis of
  extent one to a mask, the gather of the table at the indices, the not-a-number constant and its broadcast, the
  select by the mask). Every weakly fair execution terminates with the result buffer at the operations' composed pure
  term `out` of the timesteps and the table, and with the three arguments unchanged (`run_main`, `out_eq`,
  `arg0_eq` … `arg2_eq`).

  On timesteps all below 1000 that term is the gathered array of the shared specification (`out_eq_G`): such a word
  read signed is its value, so it is neither below 0 nor above 999 and the clip keeps it; it is not negative and the
  wrap keeps it; both bounds checks hold at every row, so the mask is all ones; the gather's start index read signed
  and clamped into [0, 1000] is the word's value, which is the table position the word names; and the final select,
  on a mask bit that is 1, keeps the gathered entry. `run` puts the two together at the ideal instance.
-/
import proofs.«200234_g71571335020938_cont_9to1c4b_332_23_alg».proof.Defs
import proofs.«200234_g71571335020938_cont_9to1c4b_332_23_alg».proof.Proof.Gen.ReferenceIdeal
import proofs.«200234_g71571335020938_cont_9to1c4b_332_23_alg».proof.Proof.Spec
import Idealize.ShloMosaic.Lib.StableHlo.Run
import Idealize.ShloMosaic.Lib.ValueIdx

noncomputable section

namespace Cert.Proof.RefRun

open Cert.ReferenceIdeal Idealize.ShloMosaic Idealize.ShloMosaic.TcCoe Idealize.SL.Sem Idealize.ShloMosaic.StableHlo
open Cert.ReferenceIdeal.Facts₀ Cert.ReferenceIdeal.Facts

section Body

variable {F : FTy → Type} [FloatOps F] [Cert.ReferenceIdeal.Facts]

/-! ## @main as a list of operations, and its run -/

/-- @main's thirty operations, in order: its own two constants, then the clip's six over the buffers of its call,
    then the take's twenty-two over the buffers of its call (the select of the call nested in it at its place). -/
abbrev ops : List (HloOp τ sig (Elt F)) :=
  [ nullary main_c (constantI S_ 32 0#32),
    nullary main_c_0 (constantI S_ 32 999#32),
    TRef.unary (.of main_c) main_call0.v0 id,
    TRef.unary main_call0.v0 main_call0.v1 (broadcastInDim S16384 ![] bcast_S_S16384),
    TRef.binary main_call0.v1 (.of main_arg0) main_call0.v2 maxsi,
    TRef.unary (.of main_c_0) main_call0.v3 id,
    TRef.unary main_call0.v3 main_call0.v4 (broadcastInDim S16384 ![] bcast_S_S16384),
    TRef.binary main_call0.v4 main_call0.v2 main_call0.v5 minsi,
    TRef.nullary main_call1.c (constantI S_ 32 0#32),
    TRef.unary main_call1.c main_call1.v0 (broadcastInDim S16384 ![] bcast_S_S16384),
    TRef.binary (.of main_v0) main_call1.v0 main_call1.v1 (cmpi .slt),
    TRef.nullary main_call1.c_0 (constantI S_ 32 1001#32),
    TRef.unary main_call1.c_0 main_call1.v2 (broadcastInDim S16384 ![] bcast_S_S16384),
    TRef.binary (.of main_v0) main_call1.v2 main_call1.v3 addi,
    TRef.ternary main_call1.v1 main_call1.v3 (.of main_v0) main_call1.call0.v0 select,
    TRef.unary main_call1.call0.v0 main_call1.v5 (broadcastInDim S16384x1 ![0] bcast_S16384_S16384x1_0),
    TRef.nullary main_call1.c_1 (constantI S1 32 1000#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg1) main_call1.v5 main_call1.v13 (fun x i => Host.gather gather_S1001_S16384x1_S16384_n_0_n_n_0_1_1 x i),
    TRef.nullary main_call1.cst (constant S_ .f32 0x7FC00000#32),
    TRef.unary main_call1.cst main_call1.v14 (broadcastInDim S16384 ![] bcast_S_S16384),
    TRef.ternary main_call1.v12 main_call1.v13 main_call1.v14 main_call1.v15 select ]

-- thirty binds re-associated: the rewrite under the chain recurses once per statement
set_option maxRecDepth 1024 in
/-- @main is that straight line: the three functions' definitions unfolded at their calls, both sides are one chain
    of steps once sequencing is re-associated. -/
theorem main_eq (c : Dev nD) : main (F := F) c = seq ops := by
  simp only [main, fn_clip.body, fn_take.body, fn_where.body, seq, bind_assoc, pure_bind]

/-- The signature scopes no TensorCore buffer. -/
theorem scopedRefs_eq : (Finset.univ.filter fun b : Ref sig .tc => b.isScoped) = ∅ := by decide
/-- The signature has no scoped semaphore. -/
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., nullary_bufs_sub .., unary_bufs_sub .., unary_bufs_sub .., binary_bufs_sub .., unary_bufs_sub ..,
    unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..⟩

/-- On every device, for any float values, from any memory with zero counters: every weakly fair execution of @main
    terminates, and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The composed pure term -/

/-- The timesteps clipped into [0, 999]: the minimum with 999 of the maximum with 0. -/
def clipped (t : IVec S16384 32) : IVec S16384 32 :=
  minsi (broadcastInDim S16384 ![] bcast_S_S16384 (id (constantI S_ 32 999#32)))
    (maxsi (broadcastInDim S16384 ![] bcast_S_S16384 (id (constantI S_ 32 0#32))) t)

/-- The clipped timesteps with a negative one wrapped round by the table's length. -/
def wrapped (t : IVec S16384 32) : IVec S16384 32 :=
  select (cmpi .slt (clipped t) (broadcastInDim S16384 ![] bcast_S_S16384 (constantI S_ 32 0#32)))
    (addi (clipped t) (broadcastInDim S16384 ![] bcast_S_S16384 (constantI S_ 32 1001#32))) (clipped t)

/-- The start indices: one per timestep, as a column. -/
def starts (t : IVec S16384 32) : IVec S16384x1 32 :=
  broadcastInDim S16384x1 ![0] bcast_S16384_S16384x1_0 (wrapped t)

/-- The mask of the rows whose start index is inside the table: at least 0 and at most 1000, the conjunction reduced
    along the column's one-entry axis. -/
def mask (t : IVec S16384 32) : IVec S16384 1 :=
  Host.reduce IntOp.andi
    (andi (cmpi .sge (starts t) (broadcastInDim S16384x1 ![] bcast_S_S16384x1 (constantI S_ 32 0#32)))
      (cmpi .sle (starts t) (broadcastInDim S16384x1 ![0, 1] bcast_S1x1_S16384x1_0_1
        (broadcastInDim S1x1 ![1] bcast_S1_S1x1_1 (constantI S1 32 1000#32)))))
    (constantI S_ 1 1#1) reducesTo_S16384x1_S16384_d1 h_S_

/-- The operations' composed pure term of the timesteps and the table: the table gathered at the start indices where
    the mask is set, the not-a-number constant elsewhere. -/
def out (t : IVec S16384 32) (a : FVec F S1001 .f32) : FVec F S16384 .f32 :=
  select (mask t) (Host.gather gather_S1001_S16384x1_S16384_n_0_n_n_0_1_1 a (starts t))
    (broadcastInDim S16384 ![] bcast_S_S16384 (constant S_ .f32 0x7FC00000#32))

attribute [local irreducible] Host.reduce Host.gather in
set_option maxRecDepth 8192 in
/-- The fold at the result buffer is `out` of the two arguments it reads: each operation's result at its own buffer is
    its function's value and at any other buffer what was there; the typed references' transports are the identity at
    these literal references; what is left is `out` unfolded. The reduction and the gather stay folded meanwhile: the
    equation never looks inside them. -/
theorem out_eq (V : Valuation τ sig (Elt F)) :
    after ops V (main_v1 : DevRef τ sig) = out (V (main_arg0 : DevRef τ sig)) (V (main_arg1 : DevRef τ sig)) := by
  after_results_simp
  simp only [TRef.toBuf, TRef.ofBuf, cast_eq]
  rfl

/-- No operation writes an argument. -/
theorem arg0_eq (V : Valuation τ sig (Elt F)) : after ops V (main_arg0 : DevRef τ sig) = V (main_arg0 : DevRef τ sig) := by
  simp only [after_cons, after_nil]
  rfl
@[inherit_doc arg0_eq]
theorem arg1_eq (V : Valuation τ sig (Elt F)) : after ops V (main_arg1 : DevRef τ sig) = V (main_arg1 : DevRef τ sig) := by
  simp only [after_cons, after_nil]
  rfl
@[inherit_doc arg0_eq]
theorem arg2_eq (V : Valuation τ sig (Elt F)) : after ops V (main_arg2 : DevRef τ sig) = V (main_arg2 : DevRef τ sig) := by
  simp only [after_cons, after_nil]
  rfl

/-! ## The composed term on timesteps in range -/

section Words

/-- A word below 1000 read signed is its value: its top bit is clear. -/
theorem toInt_of_lt (w : BitVec 32) (h : w.toNat < 1000) : w.toInt = (w.toNat : Int) := by
  rw [BitVec.toInt_eq_toNat_cond]
  split <;> omega

/-- It is not below 0. -/
theorem slt_zero (w : BitVec 32) (h : w.toNat < 1000) : w.slt 0#32 = false := by
  have h0 : (0#32 : BitVec 32).toInt = 0 := by decide
  unfold BitVec.slt
  rw [toInt_of_lt w h, h0]
  exact decide_eq_false (by omega)

/-- It is not above 999. -/
theorem slt_999 (w : BitVec 32) (h : w.toNat < 1000) : (999#32 : BitVec 32).slt w = false := by
  have h0 : (999#32 : BitVec 32).toInt = 999 := by decide
  unfold BitVec.slt
  rw [toInt_of_lt w h, h0]
  exact decide_eq_false (by omega)

/-- It is at least 0. -/
theorem zero_sle (w : BitVec 32) (h : w.toNat < 1000) : (0#32 : BitVec 32).sle w = true := by
  have h0 : (0#32 : BitVec 32).toInt = 0 := by decide
  unfold BitVec.sle
  rw [toInt_of_lt w h, h0]
  exact decide_eq_true (by omega)

/-- It is at most 1000. -/
theorem sle_1000 (w : BitVec 32) (h : w.toNat < 1000) : w.sle (1000#32 : BitVec 32) = true := by
  have h0 : (1000#32 : BitVec 32).toInt = 1000 := by decide
  unfold BitVec.sle
  rw [toInt_of_lt w h, h0]
  exact decide_eq_true (by omega)

end Words

/-- A left fold by `and` from 1 over one-bit words that are all 1 is 1, whatever the list. -/
theorem foldl_andi_one {ι : Type} (g : ι → BitVec 1) :
    ∀ l : List ι, (∀ n ∈ l, g n = 1#1) → l.foldl (fun r n => IntOp.andi r (g n)) 1#1 = 1#1
  | [], _ => rfl
  | a :: l, h => by
    rw [List.foldl_cons, h a List.mem_cons_self]
    exact foldl_andi_one g l fun n hn => h n (List.mem_cons_of_mem _ hn)

section Eval

variable (t : IVec S16384 32)

/-- The clip keeps a word in range: the maximum with 0 is the word, and so is the minimum with 999. -/
theorem clipped_apply (ht : Spec.InRange t) (j : S16384.Idx) : clipped t j = t j := by
  show IntOp.minsi (999#32) (IntOp.maxsi (0#32) (t j)) = t j
  unfold IntOp.minsi IntOp.maxsi
  rw [slt_zero (t j) (ht j), if_neg Bool.false_ne_true, slt_999 (t j) (ht j), if_neg Bool.false_ne_true]

/-- The wrap keeps a word in range: it is not negative. -/
theorem wrapped_apply (ht : Spec.InRange t) (j : S16384.Idx) : wrapped t j = t j := by
  show Scalar.select (IntOp.cmpi .slt (clipped t j) (0#32)) (IntOp.addi (clipped t j) (1001#32)) (clipped t j) = t j
  rw [clipped_apply t ht j]
  show Scalar.select (BitVec.ofBool ((t j).slt 0#32)) _ _ = _
  rw [slt_zero (t j) (ht j)]
  exact ValueIdx.select_zero _ _

/-- A start index is the word of the timestep in its row. -/
theorem starts_apply (ht : Spec.InRange t) (k : S16384x1.Idx) : starts t k = t (ValueIdx.ix1 (k 0)) := by
  show wrapped t _ = _
  rw [wrapped_apply t ht]
  congr 1
  funext a
  match a with
  | ⟨0, _⟩ => rfl

/-- The mask is all ones: at every entry that reduces into row `j` both bounds checks hold. -/
theorem mask_apply (ht : Spec.InRange t) (j : S16384.Idx) : mask t j = 1#1 := by
  unfold mask Host.reduce
  refine foldl_andi_one _ _ fun n _ => ?_
  show IntOp.andi (IntOp.cmpi .sge (starts t _) (0#32)) (IntOp.cmpi .sle (starts t _) (1000#32)) = 1#1
  rw [starts_apply t ht]
  show IntOp.andi (BitVec.ofBool ((0#32 : BitVec 32).sle _)) (BitVec.ofBool (BitVec.sle _ (1000#32))) = 1#1
  rw [zero_sle _ (ht _), sle_1000 _ (ht _)]
  rfl

end Eval

/-- The gather read at `j`: the table at the start index of row `j`, read signed and clamped into the table. The
    operand's one axis is collapsed and is the start index map's, so the operand index is the clamped start alone (no
    batching coordinate, no offset coordinate), and the start indices are read at row `j` of the column. -/
theorem gather_apply {α : Type} (a : S1001.Idx → α) (i : IVec S16384x1 32) (j : S16384.Idx) :
    Host.gather gather_S1001_S16384x1_S16384_n_0_n_n_0_1_1 a i j
      = a (ValueIdx.ix1 ⟨min (i (ValueIdx.ix2 (j 0) 0)).toInt.toNat 1000, by omega⟩) := by
  unfold Host.gather
  congr 1
  funext b
  obtain rfl : b = 0 := Subsingleton.elim _ _
  refine Fin.ext ?_
  show gather_S1001_S16384x1_S16384_n_0_n_n_0_1_1.start j i 0 + gather_S1001_S16384x1_S16384_n_0_n_n_0_1_1.batchCoord j 0
    + gather_S1001_S16384x1_S16384_n_0_n_n_0_1_1.offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S1001_S16384x1_S16384_n_0_n_n_0_1_1.startIndexMap from List.mem_singleton.mpr rfl)]
  have hsi : gather_S1001_S16384x1_S16384_n_0_n_n_0_1_1.siIdx j ⟨List.idxOf (0 : Fin 1) gather_S1001_S16384x1_S16384_n_0_n_n_0_1_1.startIndexMap,
      List.idxOf_lt_length_iff.2 (List.mem_singleton.mpr rfl)⟩ = ValueIdx.ix2 (j 0) 0 := by
    funext b; refine Fin.ext ?_
    match b with
    | ⟨0, _⟩ => rfl
    | ⟨1, _⟩ => rfl
  rw [hsi]
  rfl

/-- The table position a word below 1000 names is its value read signed and clamped into the table. -/
theorem pos_eq (w : BitVec 32) (h : w.toNat < 1000) :
    (ValueIdx.ix1 ⟨min w.toInt.toNat 1000, by omega⟩ : S1001.Idx) = Spec.pos w := by
  funext b
  match b with
  | ⟨0, _⟩ =>
    refine Fin.ext ?_
    show min w.toInt.toNat 1000 = w.toNat % 1001
    rw [toInt_of_lt w h, Int.toNat_natCast, Nat.mod_eq_of_lt (by omega)]
    omega

/-- The gather read at `j` when the start index of row `j` is below 1000: the table at the position it names. -/
theorem gather_pos {α : Type} (a : S1001.Idx → α) (i : IVec S16384x1 32) (j : S16384.Idx)
    (h : (i (ValueIdx.ix2 (j 0) 0)).toNat < 1000) :
    Host.gather gather_S1001_S16384x1_S16384_n_0_n_n_0_1_1 a i j = a (Spec.pos (i (ValueIdx.ix2 (j 0) 0))) := by
  rw [gather_apply, pos_eq _ h]

/-- On timesteps in range the composed term is the gathered array: the mask is all ones, so the select keeps the
    gathered entry, and the gather's start index of row `j` is the word `t j` itself. -/
theorem out_eq_G (t : IVec S16384 32) (a : FVec F S1001 .f32) (ht : Spec.InRange t) : out t a = Spec.G t a := by
  funext j
  have hs : starts t (ValueIdx.ix2 (j 0) 0) = t j := by
    rw [starts_apply t ht]
    exact congrArg t (ValueIdx.eq_ix1 j).symm
  unfold out
  rw [ValueIdx.select_apply, mask_apply t ht j, ValueIdx.select_one,
    gather_pos a (starts t) j (by rw [hs]; exact ht j), hs, Spec.G_apply]

end Body

/-! ## The run, on timesteps in range -/

open Idealize.ShloMosaic Idealize.SL.Sem in
/-- At the ideal instance, from any memory with zero counters whose timesteps are all below 1000 on every device: every
    weakly fair execution of @main terminates with the result buffer at the gathered array of the launch's timesteps and
    table, and with the three arguments unchanged. -/
theorem run [Cert.ReferenceIdeal.Facts]
    (m : (ℓ : Loc Cert.ReferenceIdeal.nD Cert.ReferenceIdeal.τ Cert.ReferenceIdeal.sig) → Buf (Elt Ideal) ℓ) (ρ : Dev Cert.ReferenceIdeal.nD → PrngReg)
    (hin : ∀ c : Dev Cert.ReferenceIdeal.nD, Cert.Proof.Spec.InRange (m ((c.tc : Thread Cert.ReferenceIdeal.nD Cert.ReferenceIdeal.τ).loc Cert.ReferenceIdeal.main_arg0))) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v1)
          = Cert.Proof.Spec.G (m ((c.tc : Thread _ _).loc Cert.ReferenceIdeal.main_arg0)) (m ((c.tc : Thread _ _).loc Cert.ReferenceIdeal.main_arg1))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)
      ∧ r.2.mem ((c.tc : Thread _ _).loc Cert.ReferenceIdeal.main_arg2) = m ((c.tc : Thread _ _).loc Cert.ReferenceIdeal.main_arg2)) :=
  (θ_run _ _ _).mono (fun _ h c =>
      ⟨(h c main_v1).trans ((out_eq _).trans (out_eq_G _ _ (hin c))),
        (h c main_arg0).trans (arg0_eq _), (h c main_arg1).trans (arg1_eq _), (h c main_arg2).trans (arg2_eq _)⟩)
    (run_main m ρ)

end Cert.Proof.RefRun

end
-- ==== Proof.lean ====
/-
  The kernel gathers a table at 16384 timestep words; the reference clips the words to [0, 999] and takes the table
  at them. Under the precondition every word already lies in [0, 999], so the clip is the identity, the reference's
  bounds mask is all ones, and both programs end with  result j = table (position named by word j)  — the one
  function `Spec.G` of the arguments, over the extended reals as over words: the kernel only moves data.

  * The kernel runs on one SparseCore's sixteen vector subcores, 1024 words each. One task's correctness
    (Proof/KITile.lean: two local copies, sixteen lanes looked up per trip under an invariant over the trip, one copy
    out) gives the whole device's run through the launch theorem (Proof/KILaunch.lean: the arrays split into sixteen
    chunks and rejoin, the table goes out as read shares). Both printed kernels are the same text read at two float
    instances; the word-level one's modules (KB…) are the idealized one's (KI…) with the program's name changed.
  * The reference is a host program; its run is read off operation by operation (Proof/RefRun.lean) and its result
    shown to be `Spec.G` under the range.
  * The range itself is read out of the precondition's integer conjunct (Proof/PreRange.lean).
  * The ideal pass rewrote nothing, so what it must preserve is `True`.
-/
import proofs.«200234_g71571335020938_cont_9to1c4b_332_23_alg».proof.Defs
import proofs.«200234_g71571335020938_cont_9to1c4b_332_23_alg».proof.Proof.Gen.Kernel
import proofs.«200234_g71571335020938_cont_9to1c4b_332_23_alg».proof.Proof.Gen.Kernel.Skeleton
import proofs.«200234_g71571335020938_cont_9to1c4b_332_23_alg».proof.Proof.Gen.KernelIdeal
import proofs.«200234_g71571335020938_cont_9to1c4b_332_23_alg».proof.Proof.Gen.KernelIdeal.Skeleton
import proofs.«200234_g71571335020938_cont_9to1c4b_332_23_alg».proof.Proof.Gen.ReferenceIdeal
import proofs.«200234_g71571335020938_cont_9to1c4b_332_23_alg».proof.Proof.Gen.Pre_input_domain
import proofs.«200234_g71571335020938_cont_9to1c4b_332_23_alg».proof.Proof.KernelClaims
import proofs.«200234_g71571335020938_cont_9to1c4b_332_23_alg».proof.Proof.RefRun
import Idealize.ShloMosaic.Adequacy
import Idealize.ShloMosaic.Init

noncomputable section

namespace Cert.Proof

open Idealize.ShloMosaic Idealize.SL.Sem

/-- The reference runs, faults nowhere, and leaves its arguments unchanged: its run with the result dropped. -/
theorem frame_ri : Cert.frame_ReferenceIdeal (hReferenceIdeal := Cert.ReferenceIdeal.Gen.facts) (hPre_input_domain := Cert.Pre_input_domain.Gen.facts) :=
  fun m ρ hpre =>
    (θ_run Cert.ReferenceIdeal.defs _ _).mono (fun _ h c => (h c).2)
      (Cert.Proof.RefRun.run m ρ (Cert.Proof.PreRange.referenceIdeal m hpre))

/-- From memories agreeing on the arguments both idealized programs end with the gathered array of those arguments. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m ρ m' ρ' hpre hagree
  refine ⟨fun c => Cert.Proof.KI.goal m c, ?_, ?_⟩
  · exact (θ_run Cert.KernelIdeal.defs _ _).mono (fun _ h c => h c) (Cert.Proof.KernelClaims.run_ki m ρ hpre)
  · have hin : ∀ c : Dev Cert.ReferenceIdeal.nD, Cert.Proof.Spec.InRange
        (m' ((c.tc : Thread Cert.ReferenceIdeal.nD Cert.ReferenceIdeal.τ).loc Cert.ReferenceIdeal.main_arg0)) := fun c => by
      rw [(hagree c).1]; exact Cert.Proof.PreRange.kernelIdeal m hpre c
    refine (θ_run Cert.ReferenceIdeal.defs _ _).mono (fun _ h c => ⟨?_, (h c).2⟩) (Cert.Proof.RefRun.run m' ρ' hin)
    rw [(h c).1, (hagree c).1, (hagree c).2.1]

theorem claim : Cert.Claim := ⟨Cert.Kernel.Gen.facts, Cert.KernelIdeal.Gen.facts, Cert.ReferenceIdeal.Gen.facts, Cert.Pre_input_domain.Gen.facts,
  Cert.Proof.KernelClaims.frame_k, Cert.Proof.KernelClaims.frame_ki, frame_ri, trivial, algebraic⟩

end Cert.Proof

end
